-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x4096 : Shape := ⟨2, ![4096, 4096]⟩
abbrev S4096x1 : Shape := ⟨2, ![4096, 1]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x1 : S_.BroadcastsInDim S4096x1 (![] : Fin 0 → Fin S4096x1.rank)
  reducesTo_S4096x1_S_d0_1 : S4096x1.ReducesTo [0, 1] S_

variable [Facts]

def fn_part1 {F : FTy → Type} [FloatOps F] (main_arg5 : FVec F S4096x1 .f32) (main_v13 : IVec S_ 1) (main_v16 : IVec S4096x1 1) : IVec S_ 1 :=
  let main_c_5 : IVec S_ 1 := constantI S_ 1 1#1
  let main_v17 : IVec S_ 1 := (fun x v => Host.reduce IntOp.andi x v reducesTo_S4096x1_S_d0_1 h_S_) main_v16 main_c_5
  let main_v18 : IVec S_ 1 := andi main_v13 main_v17
  let main_v19 : FVec F S4096x1 .f32 := Host.absf main_arg5
  let main_cst_6 : FVec F S_ .f32 := constant S_ .f32 0x7F800000#32
  let main_v20 : FVec F S4096x1 .f32 := broadcastInDim S4096x1 ![] bcast_S_S4096x1 main_cst_6
  let main_v21 : IVec S4096x1 1 := cmpf .olt main_v19 main_v20
  let main_c_7 : IVec S_ 1 := constantI S_ 1 1#1
  let main_v22 : IVec S_ 1 := (fun x v => Host.reduce IntOp.andi x v reducesTo_S4096x1_S_d0_1 h_S_) main_v21 main_c_7
  let main_v23 : IVec S_ 1 := andi main_v18 main_v22
  main_v23

def fn {F : FTy → Type} [FloatOps F] (main_arg0 : FVec F S2x2048x4096 .f32) (main_arg1 : IVec S4096x4096 32) (main_arg2 : FVec F S4096x1 .f32) (main_arg3 : FVec F S4096x1 .f32) (main_arg4 : FVec F S4096x1 .f32) (main_arg5 : FVec F S4096x1 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x1 .f32 := Host.absf main_arg3
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096x1 .f32 := Host.absf main_arg4
  let main_cst_4 : FVec F S_ .f32 := constant S_ .f32 0x7F800000#32
  let main_v15 : FVec F S4096x1 .f32 := broadcastInDim S4096x1 ![] bcast_S_S4096x1 main_cst_4
  let main_v16 : IVec S4096x1 1 := cmpf .olt main_v14 main_v15
  fn_part1 (F := F) main_arg5 main_v13 main_v16
-- ==== Kernel.lean ====
abbrev S2x2048x4096 : Shape := ⟨3, ![2, 2048, 4096]⟩
abbrev S4096x4096 : Shape := ⟨2, ![4096, 4096]⟩
abbrev S4096x1 : Shape := ⟨2, ![4096, 1]⟩
abbrev S_ : Shape := ⟨0, ![]⟩
abbrev S4096 : Shape := ⟨1, ![4096]⟩
abbrev S4096x2048 : Shape := ⟨2, ![4096, 2048]⟩
abbrev S1x4096 : Shape := ⟨2, ![1, 4096]⟩
abbrev S512x2048 : Shape := ⟨2, ![512, 2048]⟩
abbrev S512x1 : Shape := ⟨2, ![512, 1]⟩
abbrev S1x512 : Shape := ⟨2, ![1, 512]⟩
abbrev S512x512 : Shape := ⟨2, ![512, 512]⟩

abbrev nBuf : Space → Nat
  | .hbm => 61
  | .vmem => 27
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .i32⟩
  | .hbm, ⟨2, _⟩ => ⟨S4096x1, .f32⟩
  | .hbm, ⟨3, _⟩ => ⟨S4096x1, .f32⟩
  | .hbm, ⟨4, _⟩ => ⟨S4096x1, .f32⟩
  | .hbm, ⟨5, _⟩ => ⟨S4096x1, .f32⟩
  | .hbm, ⟨6, _⟩ => ⟨S4096x4096, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x4096, .f32⟩
  | .hbm, ⟨45, _⟩ => ⟨S4096x2048, .f32⟩
  | .hbm, ⟨46, _⟩ => ⟨S_, .f32⟩
  | .hbm, ⟨47, _⟩ => ⟨S4096, .f32⟩
  | .hbm, ⟨48, _⟩ => ⟨S1x4096, .f32⟩
  | .hbm, ⟨49, _⟩ => ⟨S4096x2048, .f32⟩
  | .hbm, ⟨50, _⟩ => ⟨S_, .f32⟩
  | .hbm, ⟨51, _⟩ => ⟨S4096, .f32⟩
  | .hbm, ⟨52, _⟩ => ⟨S1x4096, .f32⟩
  | .hbm, ⟨53, _⟩ => ⟨S1x4096, .f32⟩
  | .hbm, ⟨54, _⟩ => ⟨S1x4096, .f32⟩
  | .hbm, ⟨55, _⟩ => ⟨S1x4096, .f32⟩
  | .hbm, ⟨56, _⟩ => ⟨S1x4096, .f32⟩
  | .hbm, ⟨57, _⟩ => ⟨S4096x4096, .bf16⟩
  | .hbm, ⟨58, _⟩ => ⟨S4096x4096, .bf16⟩
  | .hbm, ⟨59, _⟩ => ⟨S4096x4096, .f32⟩
  | .hbm, ⟨60, _⟩ => ⟨S2x2048x4096, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_cst_4 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_v22 : Ref sig .tc := ⟨.hbm, 40, rfl⟩
abbrev main_cst_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![8, 8, 2], ![false, false, false]⟩

def k0_cond2 (i : grid0.Coords) : BitVec 1 :=
  let arg2 : BitVec 32 := BitVec.ofNat 32 (i 2).val
  let c1_i32 : BitVec 32 := 1#32
  let v59 : BitVec 1 := Scalar.cmpi .eq arg2 c1_i32
  let v60 : BitVec 32 := Scalar.extui v59
  let c0_i32_33 : BitVec 32 := 0#32
  let v61 : BitVec 1 := Scalar.cmpi .ne v60 c0_i32_33
  v61

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

class Facts₀ : Prop where
  shapeCasts_S2x2048x4096_S4096x4096 : S2x2048x4096.ShapeCasts S4096x4096
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  slices_S4096x4096_S4096x2048_0_0 : S4096x4096.Slices ![0, 0] S4096x2048
  slices_S4096x4096_S4096x2048_0_2048 : S4096x4096.Slices ![0, 2048] S4096x2048
  reducesTo_S4096x2048_S4096_d1 : S4096x2048.ReducesTo [1] S4096
  shapeCasts_S4096_S1x4096 : S4096.ShapeCasts S1x4096
  shapeCasts_S4096x1_S1x4096 : S4096x1.ShapeCasts S1x4096
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  shapeCasts_S4096x4096_S2x2048x4096 : S4096x4096.ShapeCasts S2x2048x4096
  dot_S512x2048_S512x2048_S512x512_1_1_0_0_n_n_wf : DotDims.WF S512x2048 S512x2048 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x4096.size a
  hwx0_0 : ∀ i : grid0.Coords, EltTy.bits .bf16 = 32 ∨ (Rect.block (s := S4096x4096) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x4096.size a
  hwx0_1 : ∀ i : grid0.Coords, EltTy.bits .bf16 = 32 ∨ (Rect.block (s := S4096x4096) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x4096.size a
  hwx0_6 : ∀ i : grid0.Coords, EltTy.bits .f32 = 32 ∨ (Rect.block (s := S1x4096) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x4096.size a
  hwx0_7 : ∀ i : grid0.Coords, EltTy.bits .f32 = 32 ∨ (Rect.block (s := S1x4096) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x4096.size a
  hwx0_8 : ∀ i : grid0.Coords, EltTy.bits .f32 = 32 ∨ (Rect.block (s := S1x4096) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x4096.size a
  hwx0_9 : ∀ i : grid0.Coords, EltTy.bits .f32 = 32 ∨ (Rect.block (s := S1x4096) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x4096.size a
  hwx0_10 : ∀ i : grid0.Coords, EltTy.bits .f32 = 32 ∨ (Rect.block (s := S1x4096) S1x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x4096.size a
  hwx0_11 : ∀ i : grid0.Coords, EltTy.bits .f32 = 32 ∨ (Rect.block (s := S1x4096) S1x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S4096x4096.size a
  hwx0_12 : ∀ i : grid0.Coords, EltTy.bits .f32 = 32 ∨ (Rect.block (s := S4096x4096) S512x512.size (cc0_transform_12 i) (hinb0_12 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf

abbrev win0_0 : Pipeline.Window sig grid0 :=
  Pipeline.Window.ofSpec (Memref.whole main_v36) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v24) S512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v32) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v33) S1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v28) S1x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v34) S1x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v35) S1x512.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v31) S1x512.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v38) S512x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond2 i == 1#1) | ⟨_ + 13, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S4096x4096 : Shape := ⟨2, ![4096, 4096]⟩
abbrev S4096x1 : Shape := ⟨2, ![4096, 1]⟩
abbrev S_ : Shape := ⟨0, ![]⟩
abbrev S2x2048 : Shape := ⟨2, ![2, 2048]⟩
abbrev S2x2048x1 : Shape := ⟨3, ![2, 2048, 1]⟩
abbrev S2x2048x2048 : Shape := ⟨3, ![2, 2048, 2048]⟩
abbrev S4096x2048 : Shape := ⟨2, ![4096, 2048]⟩
abbrev S4096 : Shape := ⟨1, ![4096]⟩
abbrev S1x1x4096 : Shape := ⟨3, ![1, 1, 4096]⟩

abbrev nBuf : Space → Nat
  | .hbm => 103
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .i32⟩
  | .hbm, ⟨2, _⟩ => ⟨S4096x1, .f32⟩
  | .hbm, ⟨3, _⟩ => ⟨S4096x1, .f32⟩
  | .hbm, ⟨4, _⟩ => ⟨S4096x1, .f32⟩
  | .hbm, ⟨5, _⟩ => ⟨S4096x1, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S2x2048x1, .f32⟩
  | .hbm, ⟨21, _⟩ => ⟨S2x2048x1, .f32⟩
  | .hbm, ⟨22, _⟩ => ⟨S2x2048x4096, .f32⟩
  | .hbm, ⟨23, _⟩ => ⟨S2x2048x4096, .f32⟩
  | .hbm, ⟨24, _⟩ => ⟨S2x2048x4096, .f32⟩
  | .hbm, ⟨25, _⟩ => ⟨S2x2048x4096, .f32⟩
  | .hbm, ⟨26, _⟩ => ⟨S2x2048x4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S2x2048x4096, .f32⟩
  | .hbm, ⟨31, _⟩ => ⟨S2x2048x4096, .f32⟩
  | .hbm, ⟨32, _⟩ => ⟨S_, .f32⟩
  | .hbm, ⟨33, _⟩ => ⟨S2x2048x4096, .f32⟩
  | .hbm, ⟨34, _⟩ => ⟨S2x2048x4096, .f32⟩
  | .hbm, ⟨35, _⟩ => ⟨S4096x4096, .f32⟩
  | .hbm, ⟨36, _⟩ => ⟨S2x2048x2048, .f32⟩
  | .hbm, ⟨37, _⟩ => ⟨S4096x2048, .f32⟩
  | .hbm, ⟨38, _⟩ => ⟨S4096, .f32⟩
  | .hbm, ⟨39, _⟩ => ⟨S4096, .f32⟩
  | .hbm, ⟨40, _⟩ => ⟨S2x2048x4096, .f32⟩
  | .hbm, ⟨41, _⟩ => ⟨S_, .f32⟩
  | .hbm, ⟨42, _⟩ => ⟨S2x2048, .f32⟩
  | .hbm, ⟨43, _⟩ => ⟨S2x2048x1, .f32⟩
  | .hbm, ⟨44, _⟩ => ⟨S_, .f32⟩
  | .hbm, ⟨45, _⟩ => ⟨S4096, .f32⟩
  | .hbm, ⟨46, _⟩ => ⟨S1x1x4096, .f32⟩
  | .hbm, ⟨47, _⟩ => ⟨S2x2048x4096, .f32⟩
  | .hbm, ⟨48, _⟩ => ⟨S2x2048x4096, .f32⟩
  | .hbm, ⟨49, _⟩ => ⟨S2x2048x4096, .f32⟩
  | .hbm, ⟨50, _⟩ => ⟨S2x2048x4096, .f32⟩
  | .hbm, ⟨51, _⟩ => ⟨S1x1x4096, .f32⟩
  | .hbm, ⟨52, _⟩ => ⟨S2x2048x4096, .f32⟩
  | .hbm, ⟨53, _⟩ => ⟨S2x2048x4096, .f32⟩
  | .hbm, ⟨54, _⟩ => ⟨S2x2048x4096, .f32⟩
  | .hbm, ⟨55, _⟩ => ⟨S2x2048x4096, .f32⟩
  | .hbm, ⟨56, _⟩ => ⟨S_, .f32⟩
  | .hbm, ⟨57, _⟩ => ⟨S2x2048x1, .f32⟩
  | .hbm, ⟨58, _⟩ => ⟨S2x2048x1, .f32⟩
  | .hbm, ⟨59, _⟩ => ⟨S1x1x4096, .f32⟩
  | .hbm, ⟨60, _⟩ => ⟨S2x2048x4096, .f32⟩
  | .hbm, ⟨61, _⟩ => ⟨S2x2048x4096, .f32⟩
  | .hbm, ⟨62, _⟩ => ⟨S2x2048x4096, .f32⟩
  | .hbm, ⟨63, _⟩ => ⟨S2x2048x4096, .f32⟩
  | .hbm, ⟨64, _⟩ => ⟨S1x1x4096, .f32⟩
  | .hbm, ⟨65, _⟩ => ⟨S2x2048x4096, .f32⟩
  | .hbm, ⟨66, _⟩ => ⟨S2x2048x4096, .f32⟩
  | .hbm, ⟨67, _⟩ => ⟨S2x2048x4096, .f32⟩
  | .hbm, ⟨68, _⟩ => ⟨S2x2048x4096, .f32⟩
  | .hbm, ⟨69, _⟩ => ⟨S2x2048x2048, .f32⟩
  | .hbm, ⟨70, _⟩ => ⟨S4096x2048, .f32⟩
  | .hbm, ⟨71, _⟩ => ⟨S4096, .f32⟩
  | .hbm, ⟨72, _⟩ => ⟨S4096, .f32⟩
  | .hbm, ⟨73, _⟩ => ⟨S2x2048x4096, .f32⟩
  | .hbm, ⟨74, _⟩ => ⟨S_, .f32⟩
  | .hbm, ⟨75, _⟩ => ⟨S2x2048, .f32⟩
  | .hbm, ⟨76, _⟩ => ⟨S2x2048x1, .f32⟩
  | .hbm, ⟨77, _⟩ => ⟨S_, .f32⟩
  | .hbm, ⟨78, _⟩ => ⟨S4096, .f32⟩
  | .hbm, ⟨79, _⟩ => ⟨S1x1x4096, .f32⟩
  | .hbm, ⟨80, _⟩ => ⟨S2x2048x4096, .f32⟩
  | .hbm, ⟨81, _⟩ => ⟨S2x2048x4096, .f32⟩
  | .hbm, ⟨82, _⟩ => ⟨S2x2048x4096, .f32⟩
  | .hbm, ⟨83, _⟩ => ⟨S2x2048x4096, .f32⟩
  | .hbm, ⟨84, _⟩ => ⟨S1x1x4096, .f32⟩
  | .hbm, ⟨85, _⟩ => ⟨S2x2048x4096, .f32⟩
  | .hbm, ⟨86, _⟩ => ⟨S2x2048x4096, .f32⟩
  | .hbm, ⟨87, _⟩ => ⟨S2x2048x4096, .f32⟩
  | .hbm, ⟨88, _⟩ => ⟨S2x2048x4096, .f32⟩
  | .hbm, ⟨89, _⟩ => ⟨S_, .f32⟩
  | .hbm, ⟨90, _⟩ => ⟨S2x2048x1, .f32⟩
  | .hbm, ⟨91, _⟩ => ⟨S2x2048x1, .f32⟩
  | .hbm, ⟨92, _⟩ => ⟨S1x1x4096, .f32⟩
  | .hbm, ⟨93, _⟩ => ⟨S2x2048x4096, .f32⟩
  | .hbm, ⟨94, _⟩ => ⟨S2x2048x4096, .f32⟩
  | .hbm, ⟨95, _⟩ => ⟨S2x2048x4096, .f32⟩
  | .hbm, ⟨96, _⟩ => ⟨S2x2048x4096, .f32⟩
  | .hbm, ⟨97, _⟩ => ⟨S1x1x4096, .f32⟩
  | .hbm, ⟨98, _⟩ => ⟨S2x2048x4096, .f32⟩
  | .hbm, ⟨99, _⟩ => ⟨S2x2048x4096, .f32⟩
  | .hbm, ⟨100, _⟩ => ⟨S2x2048x4096, .f32⟩
  | .hbm, ⟨101, _⟩ => ⟨S2x2048x4096, .f32⟩
  | .hbm, ⟨102, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_cst_4 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_8 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_10 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩

abbrev nD : Nat := 1
abbrev τ : Topo := Topo.v7x

variable {F : FTy → Type} [FloatOps F]

class Facts₀ : Prop where
  reducesTo_S2x2048x4096_S2x2048_d2 : S2x2048x4096.ReducesTo [2] S2x2048
  h_S_ : 0 < S_.numel
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x4096_0_1_2 : S2x2048x1.BroadcastsInDim S2x2048x4096 (![0, 1, 2] : Fin 3 → Fin S2x2048x4096.rank)
  bcast_S_S2x2048x4096 : S_.BroadcastsInDim S2x2048x4096 (![] : Fin 0 → Fin S2x2048x4096.rank)
  slices_S2x2048x4096_S2x2048x2048_0_0_0 : S2x2048x4096.Slices ![0, 0, 0] S2x2048x2048
  slices_S4096x4096_S4096x2048_0_0 : S4096x4096.Slices ![0, 0] S4096x2048
  shapeCasts_S4096x1_S4096 : S4096x1.ShapeCasts S4096
  reducesTo_S2x2048x2048_S2x2048_d2 : S2x2048x2048.ReducesTo [2] S2x2048
  reducesTo_S4096x2048_S4096_d1 : S4096x2048.ReducesTo [1] S4096
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  slices_S2x2048x4096_S2x2048x2048_0_0_2048 : S2x2048x4096.Slices ![0, 0, 2048] S2x2048x2048
  slices_S4096x4096_S4096x2048_0_2048 : S4096x4096.Slices ![0, 2048] S4096x2048
  dot_S2x2048x2048_S4096x2048_S2x2048x4096_2_1_01_0_n_n_wf : DotDims.WF S2x2048x2048 S4096x2048 S2x2048x4096 [2] [1] [0, 1] [0] [] []

variable [Facts₀]

def dot_S2x2048x2048_S4096x2048_S2x2048x4096_2_1_01_0_n_n : DotDims S2x2048x2048 S4096x2048 S2x2048x4096 where
  lhsContracting := [2]
  rhsContracting := [1]
  lhsNonContracting := [0, 1]
  rhsNonContracting := [0]
  lhsBatch := []
  rhsBatch := []
  wf := dot_S2x2048x2048_S4096x2048_S2x2048x4096_2_1_01_0_n_n_wf

class Facts : Prop extends Facts₀ where

variable [Facts]
-- ==== Proof.Spec.lean ====
/-
  The common form of the result.  Row `p` of the activations is quantized to `xq p ·` with scale `sx p` and zero
  point `zx p`; output column `n` has integer weights `w n ·` and, for each half `r` of the contracted axis, a scale
  `sw r n` and a zero point `zw r n`.  One half contributes
      (sx · sw) · (acc − zx · Σw − zw · Σx + (2048 · zx) · zw),
  where `acc = Σ_d xq p (2048 r + d) · w n (2048 r + d)`, `Σx` and `Σw` the sums of the two factors over the same
  half; the result is the sum of the two halves.  The accumulating program starts from zero, so it computes
  `(0 + half₀) + half₁`; on the extended reals `0 + a = a`, which is the one law that joins the two programs.
-/
import Idealize.ShloMosaic.PureOps.Ideal
import Idealize.ShloMosaic.Lib.ValueIdx

noncomputable section

namespace Cert.Bridge

open Idealize.ShloMosaic Idealize.ShloMosaic.ValueIdx

/-- Column `d` of half `r` of the contracted axis: `2048 r + d`. -/
abbrev col (r : Fin 2) (d : Fin 2048) : Fin 4096 := ⟨2048 * r.val + d.val, by omega⟩

/-- Row `s` of batch `b`: `2048 b + s`. -/
abbrev row (b : Fin 2) (s : Fin 2048) : Fin 4096 := ⟨2048 * b.val + s.val, by omega⟩

/-- One half's dequantized product, from the integer product `acc`, the row's scale, zero point and sum, and the
    column's scale, zero point and sum.  `0x45000000` is the float 2048, the length of a half. -/
def regionVal (acc sx zx sumx sw zw sumw : EReal) : EReal :=
  (sx * sw) * (((acc - zx * sumw) - zw * sumx) + (Ideal.ofBits .f32 0x45000000#32 * zx) * zw)

/-- The integer product over half `r`: row `p` of `X` against row `n` of `W`. -/
def halfDot (X W : (⟨2, ![4096, 4096]⟩ : Shape).Idx → EReal) (r : Fin 2) (p n : Fin 4096) : EReal :=
  ∑ d : Fin 2048, X (ix2 p (col r d)) * W (ix2 n (col r d))

/-- The accumulated result over the twelve arrays the accumulating program is launched on: the quantized
    activations and weights, the per-row scale, zero point and two half sums (columns), and per half the per-column
    scale, zero point and weight sum (rows). -/
def kernelOut (X W : (⟨2, ![4096, 4096]⟩ : Shape).Idx → EReal)
    (SX ZX SUMX1 SUMX2 : (⟨2, ![4096, 1]⟩ : Shape).Idx → EReal)
    (SW1 ZW1 SUMW1 SW2 ZW2 SUMW2 : (⟨2, ![1, 4096]⟩ : Shape).Idx → EReal) :
    (⟨2, ![4096, 4096]⟩ : Shape).Idx → EReal := fun i =>
  (Ideal.ofBits .f32 0x00000000#32
      + regionVal (halfDot X W 0 (i 0) (i 1)) (SX (ix2 (i 0) 0)) (ZX (ix2 (i 0) 0)) (SUMX1 (ix2 (i 0) 0))
          (SW1 (ix2 0 (i 1))) (ZW1 (ix2 0 (i 1))) (SUMW1 (ix2 0 (i 1))))
    + regionVal (halfDot X W 1 (i 0) (i 1)) (SX (ix2 (i 0) 0)) (ZX (ix2 (i 0) 0)) (SUMX2 (ix2 (i 0) 0))
        (SW2 (ix2 0 (i 1))) (ZW2 (ix2 0 (i 1))) (SUMW2 (ix2 0 (i 1)))

end Cert.Bridge

end
-- ==== Proof.KStep.lean ====
/-
  One grid point of the accumulating program.  At a point of half `k` the body adds to the carried accumulator block
  the half's dequantized product of its blocks: `acc ↦ acc + regionVal …` (Spec.lean), entry by entry; at the first
  half the accumulator is first set to zero, and at the second half the output block receives the accumulator.
-/
import proofs.«115700_j12403865551687_1_alg».proof.Proof.Gen.KernelIdeal.Frame
import proofs.«115700_j12403865551687_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KStep

open Idealize.ShloMosaic Idealize.ShloMosaic.TcCoe Idealize.SL.Sem Idealize.ShloMosaic.ValueIdx
open Cert.KernelIdeal Cert.KernelIdeal.Gen Cert.Bridge

variable {F : FTy → Type} [FloatOps F]

/-- What the body stores into the accumulator at a point with coordinates `i`, from its twelve input blocks (in
    window order) and the accumulator's contents `acc` before the store. -/
def accStep (i : grid0.Coords) (x0 x1 : Vec F S512x2048 .bf16) (x2 x3 x4 x5 : Vec F S512x1 .f32)
    (x6 x7 x8 x9 x10 x11 : Vec F S1x512 .f32) (acc : Vec F S512x512 .f32) : Vec F S512x512 .f32 :=
  k0_pay1 (BitVec.ofNat 32 (i 2).val) (k0_pay3 x0 x1) (k0_pay4 x2) (k0_pay5 x3) (k0_pay6 i x4 x5) (k0_pay7 i x6 x9)
    (k0_pay8 i x7 x10) x8 x11 acc

/-- The zero block the first half stores before accumulating. -/
abbrev zeroBlock : Vec F S512x512 .f32 := k0_pay2 (F := F)

end Cert.KernelIdeal.KStep

end
-- ==== Proof.KStepBody.lean ====
/-
  What each case of the body leaves behind, as one accumulation step.  At a point of the first half the accumulator
  is set to zero and then receives `zero + (the half's product)`; at a point of the second half it receives
  `(what the point before left) + (the half's product)`, and the output block receives the same array.

  Every load and store of the body is of a whole block at offset `(0, 0)`: a store leaves its payload, a load of a
  block reads the block's contents, and the load of the accumulator after the zeroing store reads the zero block.
-/
import proofs.«115700_j12403865551687_1_alg».proof.Proof.KStep

set_option maxRecDepth 16384

noncomputable section

namespace Cert.KernelIdeal.KStep

open Idealize.ShloMosaic Idealize.ShloMosaic.TcCoe Idealize.SL.Sem Idealize.ShloMosaic.ValueIdx
open Cert.KernelIdeal Cert.KernelIdeal.Gen Cert.Bridge

variable {F : FTy → Type} [FloatOps F]

/-- The offset `(0, 0)` of every load and store of the body is the zero offset. -/
theorem hz : (![0, 0] : Fin 2 → Nat) = fun _ => 0 := funext fun a => by fin_cases a <;> rfl

/-- First half: the accumulator ends at one step from the zero block. -/
theorem sout_A (c : Dev nD) (i : grid0.Coords) (arg3 : Memref sig .tc .vmem S512x2048 .bf16) (harg3 : arg3.IsWhole) (arg4 : Memref sig .tc .vmem S512x2048 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S512x512 .f32) (harg15 : arg15.IsWhole) (arg16 : Memref sig .tc .vmem S512x512 .f32) (harg16 : arg16.IsWhole) (hc0 : cond0_0 i) (hc1 : ¬cond0_1 i)
    (x0 x1 : Vec F S512x2048 .bf16) (x2 x3 x4 x5 : Vec F S512x1 .f32) (x6 x7 x8 x9 x10 x11 : Vec F S1x512 .f32) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11
      = accStep i x0 x1 x2 x3 x4 x5 x6 x7 x8 x9 x10 x11 zeroBlock := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11)]
  unfold kernelRun0_A
  dsimp only
  sl_unfold_words
  rw [View.canon_cons_unit_zero (S := S512x512) hz, View.readCov_unit_zero (S := S512x512) _ hz]
  unfold accStep
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
    View.ld_unit_zero (S := S512x2048) hz, View.ld_unit_zero (S := S512x1) hz, View.ld_unit_zero (S := S1x512) hz, View.ld_unit_zero (S := S512x512) hz]

/-- Second half: the accumulator ends at one step from what the point before left in it. -/
theorem sout_B (c : Dev nD) (i : grid0.Coords) (arg3 : Memref sig .tc .vmem S512x2048 .bf16) (harg3 : arg3.IsWhole) (arg4 : Memref sig .tc .vmem S512x2048 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S512x512 .f32) (harg15 : arg15.IsWhole) (arg16 : Memref sig .tc .vmem S512x512 .f32) (harg16 : arg16.IsWhole) (hc0 : ¬cond0_0 i) (hc1 : cond0_1 i)
    (x0 x1 : Vec F S512x2048 .bf16) (x2 x3 x4 x5 : Vec F S512x1 .f32) (x6 x7 x8 x9 x10 x11 : Vec F S1x512 .f32) (xs0 : Vec F S512x512 .f32) :
    sout0_B_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0
      = accStep i x0 x1 x2 x3 x4 x5 x6 x7 x8 x9 x10 x11 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0)]
  unfold kernelRun0_B
  dsimp only
  sl_unfold_words
  rw [View.canon_unit_zero hz]
  unfold accStep
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
    View.ld_unit_zero (S := S512x2048) hz, View.ld_unit_zero (S := S512x1) hz, View.ld_unit_zero (S := S1x512) hz, View.ld_unit_zero (S := S512x512) hz]

/-- Second half: the output block receives the accumulator. -/
theorem out_B (c : Dev nD) (i : grid0.Coords) (arg3 : Memref sig .tc .vmem S512x2048 .bf16) (harg3 : arg3.IsWhole) (arg4 : Memref sig .tc .vmem S512x2048 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S512x512 .f32) (harg15 : arg15.IsWhole) (arg16 : Memref sig .tc .vmem S512x512 .f32) (harg16 : arg16.IsWhole) (hc0 : ¬cond0_0 i) (hc1 : cond0_1 i)
    (x0 x1 : Vec F S512x2048 .bf16) (x2 x3 x4 x5 : Vec F S512x1 .f32) (x6 x7 x8 x9 x10 x11 : Vec F S1x512 .f32) (xs0 : Vec F S512x512 .f32) :
    out0_B_12 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0
      = accStep i x0 x1 x2 x3 x4 x5 x6 x7 x8 x9 x10 x11 xs0 := by
  unfold out0_B_12
  rw [View.read_writes_eq_canon _ _ _ (cover0_B_12 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0)]
  unfold kernelRun0_B
  dsimp only
  sl_unfold_words
  rw [View.canon_unit_zero hz, View.readCov_unit_zero (S := S512x512) _ hz]
  unfold accStep
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
    View.ld_unit_zero (S := S512x2048) hz, View.ld_unit_zero (S := S512x1) hz, View.ld_unit_zero (S := S1x512) hz, View.ld_unit_zero (S := S512x512) hz]

end Cert.KernelIdeal.KStep

end
-- ==== Proof.KPoints.lean ====
/-
  What the carried accumulator and the output block hold after a grid point, as accumulation steps.  The grid runs the
  two halves of the contracted axis at consecutive points: an even point (first half) leaves in the accumulator one step
  from the zero block; the odd point after it (second half) leaves in the output block one further step from that.
-/
import proofs.«115700_j12403865551687_1_alg».proof.Proof.KStepBody

set_option maxRecDepth 16384

noncomputable section

namespace Cert.KernelIdeal.KValue

open Idealize.ShloMosaic Idealize.ShloMosaic.TcCoe Idealize.SL.Sem Idealize.ShloMosaic.ValueIdx
open Cert.KernelIdeal Cert.KernelIdeal.Gen Cert.Bridge Cert.KernelIdeal.KStep

variable {F : FTy → Type} [FloatOps F]
variable (m : (ℓ : Loc nD τ sig) → Buf (Elt F) ℓ)

/-- The step a point takes from accumulator contents `acc`: its coordinates and its twelve input blocks. -/
def stepAt (c : Dev nD) (t : Fin cfg0.N) (acc : Vec F S512x512 .f32) : Vec F S512x512 .f32 :=
  accStep (grid0.coords t) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) acc

/-- After a point of the first half the accumulator holds one step from the zero block. -/
theorem acc_even (c : Dev nD) (t : Fin cfg0.N) (h0 : t.val % 2 = 0) :
    (outsAt0 m c t.val t.isLt).2 = stepAt m c t zeroBlock := by
  have h1 : ¬t.val % 2 = 1 := by omega
  rw [outsAt0_A m c t h0 h1]
  dsimp only
  exact sout_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- After a point of the second half the output block holds one step from what the point before left in the
    accumulator. -/
theorem out_odd (c : Dev nD) (t : Fin cfg0.N) (h1 : t.val % 2 = 1) :
    (outsAt0 m c t.val t.isLt).1
      = stepAt m c t (outsAt0 m c (t.val - 1) (Nat.lt_of_le_of_lt (Nat.sub_le _ _) t.isLt)).2 := by
  have h0 : ¬t.val % 2 = 0 := by omega
  rw [outsAt0_B m c t h0 h1]
  dsimp only
  exact out_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2

/-- The point before a point. -/
abbrev before (t : Fin cfg0.N) : Fin cfg0.N := ⟨t.val - 1, Nat.lt_of_le_of_lt (Nat.sub_le _ _) t.isLt⟩

/-- So after an odd point the output block holds two steps from zero: the first half's, then the second half's. -/
theorem out_two_steps (c : Dev nD) (t : Fin cfg0.N) (h1 : t.val % 2 = 1) :
    (outsAt0 m c t.val t.isLt).1 = stepAt m c t (stepAt m c (before t) zeroBlock) := by
  rw [out_odd m c t h1]
  have h0 : (before t).val % 2 = 0 := by show (t.val - 1) % 2 = 0; omega
  exact congrArg (stepAt m c t) (acc_even m c (before t) h0)

end Cert.KernelIdeal.KValue

end
-- ==== Proof.KBlocks.lean ====
/-
  Where each window's block sits in its array.  The grid is 8 x 8 x 2, last axis fastest: point `t` has row block
  `i = t / 16`, column block `j = t / 2 % 8` and half `k = t % 2`.  The activations' block is (i, k) of blocks
  [512, 2048], the weights' (j, k); the per-row columns' block is (i, 0) of [512, 1], the per-column rows' (0, j) of
  [1, 512]; the output's is (i, j) of [512, 512].  An entry of a block is the array's entry at
  (block index) x (block size) + (the entry's coordinate), axis by axis.
-/
import proofs.«115700_j12403865551687_1_alg».proof.Proof.Gen.KernelIdeal.Frame.Runs
import Idealize.ShloMosaic.Lib.Pipeline.Value
import Idealize.ShloMosaic.Lib.ValueIdx

set_option maxRecDepth 16384

noncomputable section

namespace Cert.KernelIdeal.KValue

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-! ## The index maps, decided over the grid -/

/-- The half a point works on is its parity. -/
theorem coord_half : ∀ t : Fin cfg0.N, ((grid0.coords t) 2).val = t.val % 2 :=
  (by decide +kernel : ∀ t : Fin grid0.N, ((grid0.coords t) 2).val = t.val % 2)
theorem idx_0 : ∀ t : Fin cfg0.N, win0_0.index t (0 : Fin 2) = t.val / 16 ∧ win0_0.index t (1 : Fin 2) = t.val % 2 :=
  (by decide +kernel : ∀ t : Fin grid0.N, win0_0.index t (0 : Fin 2) = t.val / 16 ∧ win0_0.index t (1 : Fin 2) = t.val % 2)
theorem idx_1 : ∀ t : Fin cfg0.N, win0_1.index t (0 : Fin 2) = t.val / 2 % 8 ∧ win0_1.index t (1 : Fin 2) = t.val % 2 :=
  (by decide +kernel : ∀ t : Fin grid0.N, win0_1.index t (0 : Fin 2) = t.val / 2 % 8 ∧ win0_1.index t (1 : Fin 2) = t.val % 2)
theorem idx_2 : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)
theorem idx_3 : ∀ t : Fin cfg0.N, win0_3.index t (0 : Fin 2) = t.val / 16 ∧ win0_3.index t (1 : Fin 2) = 0 :=
  (by decide +kernel : ∀ t : Fin grid0.N, win0_3.index t (0 : Fin 2) = t.val / 16 ∧ win0_3.index t (1 : Fin 2) = 0)
theorem idx_4 : ∀ t : Fin cfg0.N, win0_4.index t (0 : Fin 2) = t.val / 16 ∧ win0_4.index t (1 : Fin 2) = 0 :=
  (by decide +kernel : ∀ t : Fin grid0.N, win0_4.index t (0 : Fin 2) = t.val / 16 ∧ win0_4.index t (1 : Fin 2) = 0)
theorem idx_5 : ∀ t : Fin cfg0.N, win0_5.index t (0 : Fin 2) = t.val / 16 ∧ win0_5.index t (1 : Fin 2) = 0 :=
  (by decide +kernel : ∀ t : Fin grid0.N, win0_5.index t (0 : Fin 2) = t.val / 16 ∧ win0_5.index t (1 : Fin 2) = 0)
theorem idx_6 : ∀ t : Fin cfg0.N, win0_6.index t (0 : Fin 2) = 0 ∧ win0_6.index t (1 : Fin 2) = t.val / 2 % 8 :=
  (by decide +kernel : ∀ t : Fin grid0.N, win0_6.index t (0 : Fin 2) = 0 ∧ win0_6.index t (1 : Fin 2) = t.val / 2 % 8)
theorem idx_7 : ∀ t : Fin cfg0.N, win0_7.index t (0 : Fin 2) = 0 ∧ win0_7.index t (1 : Fin 2) = t.val / 2 % 8 :=
  (by decide +kernel : ∀ t : Fin grid0.N, win0_7.index t (0 : Fin 2) = 0 ∧ win0_7.index t (1 : Fin 2) = t.val / 2 % 8)
theorem idx_8 : ∀ t : Fin cfg0.N, win0_8.index t (0 : Fin 2) = 0 ∧ win0_8.index t (1 : Fin 2) = t.val / 2 % 8 :=
  (by decide +kernel : ∀ t : Fin grid0.N, win0_8.index t (0 : Fin 2) = 0 ∧ win0_8.index t (1 : Fin 2) = t.val / 2 % 8)
theorem idx_9 : ∀ t : Fin cfg0.N, win0_9.index t (0 : Fin 2) = 0 ∧ win0_9.index t (1 : Fin 2) = t.val / 2 % 8 :=
  (by decide +kernel : ∀ t : Fin grid0.N, win0_9.index t (0 : Fin 2) = 0 ∧ win0_9.index t (1 : Fin 2) = t.val / 2 % 8)
theorem idx_10 : ∀ t : Fin cfg0.N, win0_10.index t (0 : Fin 2) = 0 ∧ win0_10.index t (1 : Fin 2) = t.val / 2 % 8 :=
  (by decide +kernel : ∀ t : Fin grid0.N, win0_10.index t (0 : Fin 2) = 0 ∧ win0_10.index t (1 : Fin 2) = t.val / 2 % 8)
theorem idx_11 : ∀ t : Fin cfg0.N, win0_11.index t (0 : Fin 2) = 0 ∧ win0_11.index t (1 : Fin 2) = t.val / 2 % 8 :=
  (by decide +kernel : ∀ t : Fin grid0.N, win0_11.index t (0 : Fin 2) = 0 ∧ win0_11.index t (1 : Fin 2) = t.val / 2 % 8)
theorem idx_12 : ∀ t : Fin cfg0.N, win0_12.index t (0 : Fin 2) = t.val / 16 ∧ win0_12.index t (1 : Fin 2) = t.val / 2 % 8 :=
  (by decide +kernel : ∀ t : Fin grid0.N, win0_12.index t (0 : Fin 2) = t.val / 16 ∧ win0_12.index t (1 : Fin 2) = t.val / 2 % 8)

/-! ## The input blocks at their literal types -/

/-- Window 0's block at point `t`. -/
abbrev blk_0 (c : Dev nD) (t : Fin cfg0.N) : Vec F S512x2048 .bf16 := iblk m c 0 t
/-- Window 1's block at point `t`. -/
abbrev blk_1 (c : Dev nD) (t : Fin cfg0.N) : Vec F S512x2048 .bf16 := iblk m c 1 t
/-- Window 2's block at point `t`. -/
abbrev blk_2 (c : Dev nD) (t : Fin cfg0.N) : Vec F S512x1 .f32 := iblk m c 2 t
/-- Window 3's block at point `t`. -/
abbrev blk_3 (c : Dev nD) (t : Fin cfg0.N) : Vec F S512x1 .f32 := iblk m c 3 t
/-- Window 4's block at point `t`. -/
abbrev blk_4 (c : Dev nD) (t : Fin cfg0.N) : Vec F S512x1 .f32 := iblk m c 4 t
/-- Window 5's block at point `t`. -/
abbrev blk_5 (c : Dev nD) (t : Fin cfg0.N) : Vec F S512x1 .f32 := iblk m c 5 t
/-- Window 6's block at point `t`. -/
abbrev blk_6 (c : Dev nD) (t : Fin cfg0.N) : Vec F S1x512 .f32 := iblk m c 6 t
/-- Window 7's block at point `t`. -/
abbrev blk_7 (c : Dev nD) (t : Fin cfg0.N) : Vec F S1x512 .f32 := iblk m c 7 t
/-- Window 8's block at point `t`. -/
abbrev blk_8 (c : Dev nD) (t : Fin cfg0.N) : Vec F S1x512 .f32 := iblk m c 8 t
/-- Window 9's block at point `t`. -/
abbrev blk_9 (c : Dev nD) (t : Fin cfg0.N) : Vec F S1x512 .f32 := iblk m c 9 t
/-- Window 10's block at point `t`. -/
abbrev blk_10 (c : Dev nD) (t : Fin cfg0.N) : Vec F S1x512 .f32 := iblk m c 10 t
/-- Window 11's block at point `t`. -/
abbrev blk_11 (c : Dev nD) (t : Fin cfg0.N) : Vec F S1x512 .f32 := iblk m c 11 t

/-! ## Each input block read at an entry -/

/-- Window 0's block at point `t`, entry `(a, b)`: the array's entry `(p, q)` at block index x block size + coordinate. -/
theorem read_0 (c : Dev nD) (t : Fin cfg0.N) (a : Fin 512) (b : Fin 2048) (p : Fin 4096) (q : Fin 4096)
    (hp : p.val = 512 * (t.val / 16) + a.val) (hq : q.val = 2048 * (t.val % 2) + b.val) :
    blk_0 m c t (ix2 a b) = (V m c main_v36 : S4096x4096.Idx → Elt F .bf16) (ix2 p q) := by
  obtain ⟨e0, e1⟩ := idx_0 t
  show iblk m c 0 t (ix2 a b) = _
  unfold iblk
  rw [View.read_apply]
  show V m c main_v36 _ = V m c main_v36 _
  congr 1
  funext x
  apply Fin.ext
  match x with
  | ⟨0, _⟩ => show win0_0.index t (0 : Fin 2) * 512 + 1 * a.val = p.val; rw [e0, hp]; omega
  | ⟨1, _⟩ => show win0_0.index t (1 : Fin 2) * 2048 + 1 * b.val = q.val; rw [e1, hq]; omega

/-- Window 1's block at point `t`, entry `(a, b)`: the array's entry `(p, q)` at block index x block size + coordinate. -/
theorem read_1 (c : Dev nD) (t : Fin cfg0.N) (a : Fin 512) (b : Fin 2048) (p : Fin 4096) (q : Fin 4096)
    (hp : p.val = 512 * (t.val / 2 % 8) + a.val) (hq : q.val = 2048 * (t.val % 2) + b.val) :
    blk_1 m c t (ix2 a b) = (V m c main_v37 : S4096x4096.Idx → Elt F .bf16) (ix2 p q) := by
  obtain ⟨e0, e1⟩ := idx_1 t
  show iblk m c 1 t (ix2 a b) = _
  unfold iblk
  rw [View.read_apply]
  show V m c main_v37 _ = V m c main_v37 _
  congr 1
  funext x
  apply Fin.ext
  match x with
  | ⟨0, _⟩ => show win0_1.index t (0 : Fin 2) * 512 + 1 * a.val = p.val; rw [e0, hp]; omega
  | ⟨1, _⟩ => show win0_1.index t (1 : Fin 2) * 2048 + 1 * b.val = q.val; rw [e1, hq]; omega

/-- Window 2's block at point `t`, entry `(a, b)`: the array's entry `(p, q)` at block index x block size + coordinate. -/
theorem read_2 (c : Dev nD) (t : Fin cfg0.N) (a : Fin 512) (b : Fin 1) (p : Fin 4096) (q : Fin 1)
    (hp : p.val = 512 * (t.val / 16) + a.val) (hq : q.val = 1 * (0) + b.val) :
    blk_2 m c t (ix2 a b) = (V m c main_v9 : S4096x1.Idx → Elt F .f32) (ix2 p q) := by
  obtain ⟨e0, e1⟩ := idx_2 t
  show iblk m c 2 t (ix2 a b) = _
  unfold iblk
  rw [View.read_apply]
  show V m c main_v9 _ = V m c main_v9 _
  congr 1
  funext x
  apply Fin.ext
  match x with
  | ⟨0, _⟩ => show win0_2.index t (0 : Fin 2) * 512 + 1 * a.val = p.val; rw [e0, hp]; omega
  | ⟨1, _⟩ => show win0_2.index t (1 : Fin 2) * 1 + 1 * b.val = q.val; rw [e1, hq]; omega

/-- Window 3's block at point `t`, entry `(a, b)`: the array's entry `(p, q)` at block index x block size + coordinate. -/
theorem read_3 (c : Dev nD) (t : Fin cfg0.N) (a : Fin 512) (b : Fin 1) (p : Fin 4096) (q : Fin 1)
    (hp : p.val = 512 * (t.val / 16) + a.val) (hq : q.val = 1 * (0) + b.val) :
    blk_3 m c t (ix2 a b) = (V m c main_v12 : S4096x1.Idx → Elt F .f32) (ix2 p q) := by
  obtain ⟨e0, e1⟩ := idx_3 t
  show iblk m c 3 t (ix2 a b) = _
  unfold iblk
  rw [View.read_apply]
  show V m c main_v12 _ = V m c main_v12 _
  congr 1
  funext x
  apply Fin.ext
  match x with
  | ⟨0, _⟩ => show win0_3.index t (0 : Fin 2) * 512 + 1 * a.val = p.val; rw [e0, hp]; omega
  | ⟨1, _⟩ => show win0_3.index t (1 : Fin 2) * 1 + 1 * b.val = q.val; rw [e1, hq]; omega

/-- Window 4's block at point `t`, entry `(a, b)`: the array's entry `(p, q)` at block index x block size + coordinate. -/
theorem read_4 (c : Dev nD) (t : Fin cfg0.N) (a : Fin 512) (b : Fin 1) (p : Fin 4096) (q : Fin 1)
    (hp : p.val = 512 * (t.val / 16) + a.val) (hq : q.val = 1 * (0) + b.val) :
    blk_4 m c t (ix2 a b) = (V m c main_v22 : S4096x1.Idx → Elt F .f32) (ix2 p q) := by
  obtain ⟨e0, e1⟩ := idx_4 t
  show iblk m c 4 t (ix2 a b) = _
  unfold iblk
  rw [View.read_apply]
  show V m c main_v22 _ = V m c main_v22 _
  congr 1
  funext x
  apply Fin.ext
  match x with
  | ⟨0, _⟩ => show win0_4.index t (0 : Fin 2) * 512 + 1 * a.val = p.val; rw [e0, hp]; omega
  | ⟨1, _⟩ => show win0_4.index t (1 : Fin 2) * 1 + 1 * b.val = q.val; rw [e1, hq]; omega

/-- Window 5's block at point `t`, entry `(a, b)`: the array's entry `(p, q)` at block index x block size + coordinate. -/
theorem read_5 (c : Dev nD) (t : Fin cfg0.N) (a : Fin 512) (b : Fin 1) (p : Fin 4096) (q : Fin 1)
    (hp : p.val = 512 * (t.val / 16) + a.val) (hq : q.val = 1 * (0) + b.val) :
    blk_5 m c t (ix2 a b) = (V m c main_v24 : S4096x1.Idx → Elt F .f32) (ix2 p q) := by
  obtain ⟨e0, e1⟩ := idx_5 t
  show iblk m c 5 t (ix2 a b) = _
  unfold iblk
  rw [View.read_apply]
  show V m c main_v24 _ = V m c main_v24 _
  congr 1
  funext x
  apply Fin.ext
  match x with
  | ⟨0, _⟩ => show win0_5.index t (0 : Fin 2) * 512 + 1 * a.val = p.val; rw [e0, hp]; omega
  | ⟨1, _⟩ => show win0_5.index t (1 : Fin 2) * 1 + 1 * b.val = q.val; rw [e1, hq]; omega

/-- Window 6's block at point `t`, entry `(a, b)`: the array's entry `(p, q)` at block index x block size + coordinate. -/
theorem read_6 (c : Dev nD) (t : Fin cfg0.N) (a : Fin 1) (b : Fin 512) (p : Fin 1) (q : Fin 4096)
    (hp : p.val = 1 * (0) + a.val) (hq : q.val = 512 * (t.val / 2 % 8) + b.val) :
    blk_6 m c t (ix2 a b) = (V m c main_v32 : S1x4096.Idx → Elt F .f32) (ix2 p q) := by
  obtain ⟨e0, e1⟩ := idx_6 t
  show iblk m c 6 t (ix2 a b) = _
  unfold iblk
  rw [View.read_apply]
  show V m c main_v32 _ = V m c main_v32 _
  congr 1
  funext x
  apply Fin.ext
  match x with
  | ⟨0, _⟩ => show win0_6.index t (0 : Fin 2) * 1 + 1 * a.val = p.val; rw [e0, hp]; omega
  | ⟨1, _⟩ => show win0_6.index t (1 : Fin 2) * 512 + 1 * b.val = q.val; rw [e1, hq]; omega

/-- Window 7's block at point `t`, entry `(a, b)`: the array's entry `(p, q)` at block index x block size + coordinate. -/
theorem read_7 (c : Dev nD) (t : Fin cfg0.N) (a : Fin 1) (b : Fin 512) (p : Fin 1) (q : Fin 4096)
    (hp : p.val = 1 * (0) + a.val) (hq : q.val = 512 * (t.val / 2 % 8) + b.val) :
    blk_7 m c t (ix2 a b) = (V m c main_v33 : S1x4096.Idx → Elt F .f32) (ix2 p q) := by
  obtain ⟨e0, e1⟩ := idx_7 t
  show iblk m c 7 t (ix2 a b) = _
  unfold iblk
  rw [View.read_apply]
  show V m c main_v33 _ = V m c main_v33 _
  congr 1
  funext x
  apply Fin.ext
  match x with
  | ⟨0, _⟩ => show win0_7.index t (0 : Fin 2) * 1 + 1 * a.val = p.val; rw [e0, hp]; omega
  | ⟨1, _⟩ => show win0_7.index t (1 : Fin 2) * 512 + 1 * b.val = q.val; rw [e1, hq]; omega

/-- Window 8's block at point `t`, entry `(a, b)`: the array's entry `(p, q)` at block index x block size + coordinate. -/
theorem read_8 (c : Dev nD) (t : Fin cfg0.N) (a : Fin 1) (b : Fin 512) (p : Fin 1) (q : Fin 4096)
    (hp : p.val = 1 * (0) + a.val) (hq : q.val = 512 * (t.val / 2 % 8) + b.val) :
    blk_8 m c t (ix2 a b) = (V m c main_v28 : S1x4096.Idx → Elt F .f32) (ix2 p q) := by
  obtain ⟨e0, e1⟩ := idx_8 t
  show iblk m c 8 t (ix2 a b) = _
  unfold iblk
  rw [View.read_apply]
  show V m c main_v28 _ = V m c main_v28 _
  congr 1
  funext x
  apply Fin.ext
  match x with
  | ⟨0, _⟩ => show win0_8.index t (0 : Fin 2) * 1 + 1 * a.val = p.val; rw [e0, hp]; omega
  | ⟨1, _⟩ => show win0_8.index t (1 : Fin 2) * 512 + 1 * b.val = q.val; rw [e1, hq]; omega

/-- Window 9's block at point `t`, entry `(a, b)`: the array's entry `(p, q)` at block index x block size + coordinate. -/
theorem read_9 (c : Dev nD) (t : Fin cfg0.N) (a : Fin 1) (b : Fin 512) (p : Fin 1) (q : Fin 4096)
    (hp : p.val = 1 * (0) + a.val) (hq : q.val = 512 * (t.val / 2 % 8) + b.val) :
    blk_9 m c t (ix2 a b) = (V m c main_v34 : S1x4096.Idx → Elt F .f32) (ix2 p q) := by
  obtain ⟨e0, e1⟩ := idx_9 t
  show iblk m c 9 t (ix2 a b) = _
  unfold iblk
  rw [View.read_apply]
  show V m c main_v34 _ = V m c main_v34 _
  congr 1
  funext x
  apply Fin.ext
  match x with
  | ⟨0, _⟩ => show win0_9.index t (0 : Fin 2) * 1 + 1 * a.val = p.val; rw [e0, hp]; omega
  | ⟨1, _⟩ => show win0_9.index t (1 : Fin 2) * 512 + 1 * b.val = q.val; rw [e1, hq]; omega

/-- Window 10's block at point `t`, entry `(a, b)`: the array's entry `(p, q)` at block index x block size + coordinate. -/
theorem read_10 (c : Dev nD) (t : Fin cfg0.N) (a : Fin 1) (b : Fin 512) (p : Fin 1) (q : Fin 4096)
    (hp : p.val = 1 * (0) + a.val) (hq : q.val = 512 * (t.val / 2 % 8) + b.val) :
    blk_10 m c t (ix2 a b) = (V m c main_v35 : S1x4096.Idx → Elt F .f32) (ix2 p q) := by
  obtain ⟨e0, e1⟩ := idx_10 t
  show iblk m c 10 t (ix2 a b) = _
  unfold iblk
  rw [View.read_apply]
  show V m c main_v35 _ = V m c main_v35 _
  congr 1
  funext x
  apply Fin.ext
  match x with
  | ⟨0, _⟩ => show win0_10.index t (0 : Fin 2) * 1 + 1 * a.val = p.val; rw [e0, hp]; omega
  | ⟨1, _⟩ => show win0_10.index t (1 : Fin 2) * 512 + 1 * b.val = q.val; rw [e1, hq]; omega

/-- Window 11's block at point `t`, entry `(a, b)`: the array's entry `(p, q)` at block index x block size + coordinate. -/
theorem read_11 (c : Dev nD) (t : Fin cfg0.N) (a : Fin 1) (b : Fin 512) (p : Fin 1) (q : Fin 4096)
    (hp : p.val = 1 * (0) + a.val) (hq : q.val = 512 * (t.val / 2 % 8) + b.val) :
    blk_11 m c t (ix2 a b) = (V m c main_v31 : S1x4096.Idx → Elt F .f32) (ix2 p q) := by
  obtain ⟨e0, e1⟩ := idx_11 t
  show iblk m c 11 t (ix2 a b) = _
  unfold iblk
  rw [View.read_apply]
  show V m c main_v31 _ = V m c main_v31 _
  congr 1
  funext x
  apply Fin.ext
  match x with
  | ⟨0, _⟩ => show win0_11.index t (0 : Fin 2) * 1 + 1 * a.val = p.val; rw [e0, hp]; omega
  | ⟨1, _⟩ => show win0_11.index t (1 : Fin 2) * 512 + 1 * b.val = q.val; rw [e1, hq]; omega

end Cert.KernelIdeal.KValue

end
-- ==== Proof.LibMatmulRowsRead.lean ====
/-
  A matrix product of two arrays that share their SECOND axis, read entry by entry.

  A product that contracts the second axis of an `[a, k]` array with the second axis of a `[b, k]` array,
  started from the zero accumulator, reads at `(p, q)` the inner product of row `p` of the first with row `q`
  of the second: the sum over `d` of the left operand at `(p, d)` times the right operand at `(q, d)`. (This is
  the product of the first array with the transpose of the second, with no transpose written.)
  The record of dimension numbers is any one whose six axis lists are those of this contraction; at a literal
  record each of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- A product contracting the second axis of the left operand with the second axis of the right one, from the zero
    accumulator, read at `(p, q)`: the inner product of row `p` of the left operand with row `q` of the right one. -/
theorem matmul_rows_ix2_apply {a k b : ℕ} {φ₁ φ₂ : FTy} (D : DotDims ⟨2, ![a, k]⟩ ⟨2, ![b, k]⟩ ⟨2, ![a, b]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![a, k]⟩ φ₁) (w : FVec Ideal ⟨2, ![b, k]⟩ φ₂)
    (p : Fin a) (q : Fin b) :
    matmul D prec x w (constant (F := Ideal) ⟨2, ![a, b]⟩ .f32 0x00000000#32) (ix2 p q)
      = ∑ d : Fin k, x (ix2 p d) * w (ix2 q d) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => rfl
    | ⟨1, _⟩ => exact (DotDims.rhsIdx_val_of_single _ rfl _ _).trans (contrEquiv1_symm_val _ k rfl rfl d)

end Idealize.ShloMosaic.ValueIdx
-- ==== Proof.LibColumnLayout.lean ====
/-
  A column kept as a unit axis, read at an index given by coordinates.

  A reduction over the last axis of an `[a, b]` array that keeps that axis (a row maximum or a row sum with the
  reduced axis retained) produces an `[a]` vector, casts it to the column `[a, 1]` and broadcasts the column back
  over the `b` entries of each row. Two facts say what those two steps do to an entry:
    • the vector cast to a column reads, at `(p, u)`, the vector at `p`, whatever the unit coordinate `u`;
    • the column broadcast over `b` columns reads, at `(p, c)`, the column at `(p, 0)`.
  Both are the general shape-cast and broadcast readings with the coordinates' arithmetic done once.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KStepRead.lean ====
/-
  One accumulation step read at an entry, on the extended reals: entry `(a, b)` of the block gains the half's
  dequantized product of row `a` of the activation block and row `b` of the weight block.

  The step is a composition of pointwise operations on `[512, 512]` blocks whose operands are the product of the two
  blocks (contracting their second axes), three columns `[512, 1]` broadcast along the rows and three rows `[1, 512]`
  broadcast along the columns.  Read at `(a, b)`, a broadcast column is the column at `(a, 0)`, a broadcast row is the
  row at `(0, b)`, and the product is the inner product of row `a` and row `b`.  The selects on the half `k` choose,
  as whole arrays, the half's row sums, scales, zero points and weight sums before anything is read.
-/
import proofs.«115700_j12403865551687_1_alg».proof.Proof.KStep
import proofs.«115700_j12403865551687_1_alg».proof.Proof.LibMatmulRowsRead
import proofs.«115700_j12403865551687_1_alg».proof.Proof.LibColumnLayout

noncomputable section

namespace Cert.KernelIdeal.KStep

open Idealize.ShloMosaic Idealize.ShloMosaic.TcCoe Idealize.SL.Sem Idealize.ShloMosaic.ValueIdx
open Cert.KernelIdeal Cert.KernelIdeal.Gen Cert.Bridge

/-! ## The comparison of the half with zero, decided -/

/-- At a point of the first half the comparison `k = 0` is the bit `1`. -/
theorem cmp_first (i : grid0.Coords) (hk : (i 2).val = 0) :
    Scalar.cmpi .eq (BitVec.ofNat 32 (i 2).val) 0#32 = 1#1 := by
  rw [hk]; rfl

/-- At a point of the second half the comparison `k = 0` is the bit `0`. -/
theorem cmp_second (i : grid0.Coords) (hk : (i 2).val = 1) :
    Scalar.cmpi .eq (BitVec.ofNat 32 (i 2).val) 0#32 = 0#1 := by
  rw [hk]; rfl

/-! ## The operands of a step: identity casts, and selects that take one array whole -/

section AnyInstance
variable {F : FTy → Type} [FloatOps F]

/-- The scale column is the loaded block (an identity cast). -/
theorem pay4_eq (v8 : Vec F S512x1 .f32) : k0_pay4 v8 = v8 := by
  unfold k0_pay4; exact shapeCast_self _ _

/-- The zero-point column is the loaded block (an identity cast). -/
theorem pay5_eq (v10 : Vec F S512x1 .f32) : k0_pay5 v10 = v10 := by
  unfold k0_pay5; exact shapeCast_self _ _

/-- First half: the row-sum column is the first of the two loaded. -/
theorem pay6_first (i : grid0.Coords) (hk : (i 2).val = 0) (v13 v15 : Vec F S512x1 .f32) : k0_pay6 i v13 v15 = v13 := by
  unfold k0_pay6
  simp only [shapeCast_self, cmp_first i hk, select_one]

/-- Second half: the row-sum column is the second of the two loaded. -/
theorem pay6_second (i : grid0.Coords) (hk : (i 2).val = 1) (v13 v15 : Vec F S512x1 .f32) : k0_pay6 i v13 v15 = v15 := by
  unfold k0_pay6
  simp only [shapeCast_self, cmp_second i hk, select_zero]

/-- First half: the weight-scale row is the first of the two loaded. -/
theorem pay7_first (i : grid0.Coords) (hk : (i 2).val = 0) (v19 v21 : Vec F S1x512 .f32) : k0_pay7 i v19 v21 = v19 := by
  unfold k0_pay7
  simp only [shapeCast_self, cmp_first i hk, select_one]

/-- Second half: the weight-scale row is the second of the two loaded. -/
theorem pay7_second (i : grid0.Coords) (hk : (i 2).val = 1) (v19 v21 : Vec F S1x512 .f32) : k0_pay7 i v19 v21 = v21 := by
  unfold k0_pay7
  simp only [shapeCast_self, cmp_second i hk, select_zero]

/-- First half: the weight-zero-point row is the first of the two loaded. -/
theorem pay8_first (i : grid0.Coords) (hk : (i 2).val = 0) (v25 v27 : Vec F S1x512 .f32) : k0_pay8 i v25 v27 = v25 := by
  unfold k0_pay8
  simp only [shapeCast_self, cmp_first i hk, select_one]

/-- Second half: the weight-zero-point row is the second of the two loaded. -/
theorem pay8_second (i : grid0.Coords) (hk : (i 2).val = 1) (v25 v27 : Vec F S1x512 .f32) : k0_pay8 i v25 v27 = v27 := by
  unfold k0_pay8
  simp only [shapeCast_self, cmp_second i hk, select_zero]

end AnyInstance

/-! ## The product and the step, read at an entry -/

/-- The product of the two blocks, from the zero accumulator, at `(a, b)`: the inner product of row `a` of the
    activation block with row `b` of the weight block. -/
theorem pay3_apply (v3 v5 : Vec Ideal S512x2048 .bf16) (a b : Fin 512) :
    k0_pay3 v3 v5 (ix2 a b) = ∑ d : Fin 2048, v3 (ix2 a d) * v5 (ix2 b d) := by
  unfold k0_pay3
  simp only [shapeCast_self]
  exact matmul_rows_ix2_apply dot_S512x2048_S512x2048_S512x512_1_1_0_0_n_n rfl rfl rfl rfl rfl rfl none v3 v5 a b

/-- The stored block at `(a, b)`, over any operands: the accumulator's entry plus the dequantized product of the
    entry's integer product `v7 (a, b)`, the row's scale, zero point and sum, and the column's scale, zero point and
    the selected weight sum. -/
theorem pay1_apply (arg2 : BitVec 32) (v7 : FVec Ideal S512x512 .f32) (v9 v11 v17 : FVec Ideal S512x1 .f32)
    (v23 v29 : FVec Ideal S1x512 .f32) (v31 v33 : Vec Ideal S1x512 .f32) (v50 : Vec Ideal S512x512 .f32) (a b : Fin 512) :
    k0_pay1 arg2 v7 v9 v11 v17 v23 v29 v31 v33 v50 (ix2 a b)
      = v50 (ix2 a b) + regionVal (v7 (ix2 a b)) (v9 (ix2 a 0)) (v11 (ix2 a 0)) (v17 (ix2 a 0)) (v23 (ix2 0 b))
          (v29 (ix2 0 b)) (Scalar.select (Scalar.cmpi .eq arg2 0#32) v31 v33 (ix2 0 b)) := by
  unfold k0_pay1 regionVal
  simp only [shapeCast_self, addf_apply, mulf_apply, subf_apply, broadcastTo_a1_ab_apply, broadcastTo_1b_ab_apply,
    broadcast_apply]
  rfl

/-- The zero block is zero at every entry. -/
theorem zeroBlock_apply (a b : Fin 512) :
    (zeroBlock (F := Ideal)) (ix2 a b) = Ideal.ofBits .f32 0x00000000#32 := by
  show k0_pay2 (F := Ideal) (ix2 a b) = _
  unfold k0_pay2
  simp only [shapeCast_self, broadcast_apply]
  rfl

/-- A step at a point of the first half (`k = 0`): the selects take the first half's row sums, scales, zero points
    and weight sums. -/
theorem accStep_apply0 (i : grid0.Coords) (hk : (i 2).val = 0)
    (x0 x1 : Vec Ideal S512x2048 .bf16) (x2 x3 x4 x5 : Vec Ideal S512x1 .f32)
    (x6 x7 x8 x9 x10 x11 : Vec Ideal S1x512 .f32) (acc : Vec Ideal S512x512 .f32) (a b : Fin 512) :
    accStep (F := Ideal) i x0 x1 x2 x3 x4 x5 x6 x7 x8 x9 x10 x11 acc (ix2 a b)
      = acc (ix2 a b) + regionVal (∑ d : Fin 2048, x0 (ix2 a d) * x1 (ix2 b d))
          (x2 (ix2 a 0)) (x3 (ix2 a 0)) (x4 (ix2 a 0)) (x6 (ix2 0 b)) (x7 (ix2 0 b)) (x8 (ix2 0 b)) := by
  unfold accStep
  rw [pay1_apply, pay3_apply, pay4_eq, pay5_eq, pay6_first i hk, pay7_first i hk, pay8_first i hk, cmp_first i hk,
    select_one]

/-- A step at a point of the second half (`k = 1`). -/
theorem accStep_apply1 (i : grid0.Coords) (hk : (i 2).val = 1)
    (x0 x1 : Vec Ideal S512x2048 .bf16) (x2 x3 x4 x5 : Vec Ideal S512x1 .f32)
    (x6 x7 x8 x9 x10 x11 : Vec Ideal S1x512 .f32) (acc : Vec Ideal S512x512 .f32) (a b : Fin 512) :
    accStep (F := Ideal) i x0 x1 x2 x3 x4 x5 x6 x7 x8 x9 x10 x11 acc (ix2 a b)
      = acc (ix2 a b) + regionVal (∑ d : Fin 2048, x0 (ix2 a d) * x1 (ix2 b d))
          (x2 (ix2 a 0)) (x3 (ix2 a 0)) (x5 (ix2 a 0)) (x9 (ix2 0 b)) (x10 (ix2 0 b)) (x11 (ix2 0 b)) := by
  unfold accStep
  rw [pay1_apply, pay3_apply, pay4_eq, pay5_eq, pay6_second i hk, pay7_second i hk, pay8_second i hk, cmp_second i hk,
    select_zero]

end Cert.KernelIdeal.KStep

end
-- ==== Proof.KFinal.lean ====
/-
  From one grid point to the whole array.  At an odd point the output block holds two accumulation steps from zero (the
  even point before it, then the point itself); read at an entry, each step adds the half's dequantized product, and each
  input block's entry is its array's entry at the block's place, so entry (a, b) of the block of point `t` is the
  specification at row `512 (t / 16) + a` and column `512 (t / 2 % 8) + b`.  The odd points' blocks tile the output,
  so the array the region leaves is the specification everywhere.
-/
import proofs.«115700_j12403865551687_1_alg».proof.Proof.KPoints
import proofs.«115700_j12403865551687_1_alg».proof.Proof.KBlocks
import proofs.«115700_j12403865551687_1_alg».proof.Proof.KStepRead

set_option maxRecDepth 16384

noncomputable section

namespace Cert.KernelIdeal.KValue

open Idealize.ShloMosaic Idealize.ShloMosaic.TcCoe Idealize.SL.Sem Idealize.ShloMosaic.ValueIdx
open Cert.KernelIdeal Cert.KernelIdeal.Gen Cert.Bridge Cert.KernelIdeal.KStep
open Idealize.ShloMosaic.Pipeline (Dat)

variable (m : (ℓ : Loc nD τ sig) → Buf (Elt Ideal) ℓ)

/-- The array the region leaves: the specification over the twelve arrays the region is launched on. -/
abbrev out (c : Dev nD) : (⟨2, ![4096, 4096]⟩ : Shape).Idx → EReal :=
  kernelOut (V m c main_v36) (V m c main_v37) (V m c main_v9) (V m c main_v12) (V m c main_v22) (V m c main_v24) (V m c main_v32) (V m c main_v33) (V m c main_v28) (V m c main_v34) (V m c main_v35) (V m c main_v31)

/-- A step at a point of the first half, read at an entry. -/
theorem stepAt_first (c : Dev nD) (t : Fin cfg0.N) (hk : ((grid0.coords t) 2).val = 0) (acc : Vec Ideal S512x512 .f32)
    (a b : Fin 512) :
    stepAt m c t acc (ix2 a b)
      = acc (ix2 a b) + regionVal (∑ d : Fin 2048, blk_0 m c t (ix2 a d) * blk_1 m c t (ix2 b d))
          (blk_2 m c t (ix2 a 0)) (blk_3 m c t (ix2 a 0)) (blk_4 m c t (ix2 a 0))
          (blk_6 m c t (ix2 0 b)) (blk_7 m c t (ix2 0 b)) (blk_8 m c t (ix2 0 b)) :=
  accStep_apply0 (grid0.coords t) hk (blk_0 m c t) (blk_1 m c t) (blk_2 m c t) (blk_3 m c t) (blk_4 m c t) (blk_5 m c t) (blk_6 m c t) (blk_7 m c t) (blk_8 m c t) (blk_9 m c t) (blk_10 m c t) (blk_11 m c t) acc a b

/-- A step at a point of the second half, read at an entry. -/
theorem stepAt_second (c : Dev nD) (t : Fin cfg0.N) (hk : ((grid0.coords t) 2).val = 1) (acc : Vec Ideal S512x512 .f32)
    (a b : Fin 512) :
    stepAt m c t acc (ix2 a b)
      = acc (ix2 a b) + regionVal (∑ d : Fin 2048, blk_0 m c t (ix2 a d) * blk_1 m c t (ix2 b d))
          (blk_2 m c t (ix2 a 0)) (blk_3 m c t (ix2 a 0)) (blk_5 m c t (ix2 a 0))
          (blk_9 m c t (ix2 0 b)) (blk_10 m c t (ix2 0 b)) (blk_11 m c t (ix2 0 b)) :=
  accStep_apply1 (grid0.coords t) hk (blk_0 m c t) (blk_1 m c t) (blk_2 m c t) (blk_3 m c t) (blk_4 m c t) (blk_5 m c t) (blk_6 m c t) (blk_7 m c t) (blk_8 m c t) (blk_9 m c t) (blk_10 m c t) (blk_11 m c t) acc a b

/-- Entry `(a, b)` of what an odd point `t` leaves in the output block is the specification at the entry's place in
    the array: row `512 (t / 16) + a`, column `512 (t / 2 % 8) + b`. -/
theorem entry_eq (c : Dev nD) (t : Fin cfg0.N) (h1 : t.val % 2 = 1) (a b : Fin 512) (p n : Fin 4096)
    (hp : p.val = 512 * (t.val / 16) + a.val) (hn : n.val = 512 * (t.val / 2 % 8) + b.val) :
    stepAt m c t (stepAt m c (before t) zeroBlock) (ix2 a b) = out m c (ix2 p n) := by
  have hk1 : ((grid0.coords t) 2).val = 1 := (coord_half t).trans h1
  have hk0 : ((grid0.coords (before t)) 2).val = 0 := by
    rw [coord_half]; show (t.val - 1) % 2 = 0; omega
  have hp' : p.val = 512 * ((before t).val / 16) + a.val := by
    show p.val = 512 * ((t.val - 1) / 16) + a.val; omega
  have hn' : n.val = 512 * ((before t).val / 2 % 8) + b.val := by
    show n.val = 512 * ((t.val - 1) / 2 % 8) + b.val; omega
  have z1 : ((0 : Fin 1)).val = 1 * 0 + ((0 : Fin 1)).val := rfl
  -- the second half's reads, at the point itself
  have s1 : (∑ d : Fin 2048, blk_0 m c t (ix2 a d) * blk_1 m c t (ix2 b d))
      = halfDot (V m c main_v36) (V m c main_v37) 1 p n := by
    unfold halfDot
    refine Finset.sum_congr rfl fun d _ => ?_
    rw [read_0 m c t a d p (col 1 d) hp (by show 2048 * 1 + d.val = 2048 * (t.val % 2) + d.val; omega),
      read_1 m c t b d n (col 1 d) hn (by show 2048 * 1 + d.val = 2048 * (t.val % 2) + d.val; omega)]
  -- the first half's reads, at the point before
  have s0 : (∑ d : Fin 2048, blk_0 m c (before t) (ix2 a d) * blk_1 m c (before t) (ix2 b d))
      = halfDot (V m c main_v36) (V m c main_v37) 0 p n := by
    unfold halfDot
    refine Finset.sum_congr rfl fun d _ => ?_
    rw [read_0 m c (before t) a d p (col 0 d) hp' (by show 2048 * 0 + d.val = 2048 * ((t.val - 1) % 2) + d.val; omega),
      read_1 m c (before t) b d n (col 0 d) hn' (by show 2048 * 0 + d.val = 2048 * ((t.val - 1) % 2) + d.val; omega)]
  rw [stepAt_second m c t hk1, stepAt_first m c (before t) hk0, zeroBlock_apply, s1, s0,
    read_2 m c t a 0 p 0 hp z1, read_3 m c t a 0 p 0 hp z1, read_5 m c t a 0 p 0 hp z1,
    read_9 m c t 0 b 0 n z1 hn, read_10 m c t 0 b 0 n z1 hn, read_11 m c t 0 b 0 n z1 hn,
    read_2 m c (before t) a 0 p 0 hp' z1, read_3 m c (before t) a 0 p 0 hp' z1, read_4 m c (before t) a 0 p 0 hp' z1,
    read_6 m c (before t) 0 b 0 n z1 hn', read_7 m c (before t) 0 b 0 n z1 hn', read_8 m c (before t) 0 b 0 n z1 hn']
  rfl

/-- Two functions on a [512, 512] block that agree at every entry are equal. -/
theorem block_ext (L R : S512x512.Idx → EReal) (h : ∀ a b : Fin 512, L (ix2 a b) = R (ix2 a b)) : L = R :=
  funext fun y => (congrArg L (eq_ix2 y)).trans ((h (y 0) (y 1)).trans (congrArg R (eq_ix2 y)).symm)

/-- What an odd point writes back is its block of the specification. -/
theorem flushed_eq (c : Dev nD) (t : Fin cfg0.N) (hf : (cfg0.win 12).flush t = true) :
    (dats m 0 c).flushed 12 t = ((cfg0.win 12).blk t).view.read (Elt Ideal) (out m c) := by
  have h1 : t.val % 2 = 1 := (flush0_12 t).mp hf
  obtain ⟨e0, e1⟩ := idx_12 t
  show (cfg0.win 12).cut (grid0.coords t) ((dats m 0 c).after 12 t) = _
  rw [after0_12, out_two_steps m c t h1]
  refine block_ext _ _ fun a b => ?_
  show stepAt m c t (stepAt m c (before t) zeroBlock) (ix2 a b) = out m c (((cfg0.win 12).blk t).view.emb (ix2 a b))
  refine Eq.trans ?_ (congrArg (out m c) (eq_ix2 _).symm)
  refine entry_eq m c t h1 a b _ _ ?_ ?_
  · show win0_12.index t (0 : Fin 2) * 512 + 1 * a.val = _
    rw [e0]; omega
  · show win0_12.index t (1 : Fin 2) * 512 + 1 * b.val = _
    rw [e1]; omega

/-- Every entry of the output array lies in the block of an odd point: row block `p / 512`, column block `n / 512`,
    second half. -/
theorem covered (i : S4096x4096.Idx) :
    ∃ t : Fin cfg0.N, (cfg0.win 12).flush t = true ∧ i ∈ ((cfg0.win 12).blk t).view.set := by
  have hi0 : (i 0).val < 4096 := (i 0).isLt
  have hi1 : (i 1).val < 4096 := (i 1).isLt
  have hN : cfg0.N = 128 := N_0
  have hb : 16 * ((i 0).val / 512) + 2 * ((i 1).val / 512) + 1 < cfg0.N := by rw [hN]; omega
  obtain ⟨e0, e1⟩ := idx_12 ⟨16 * ((i 0).val / 512) + 2 * ((i 1).val / 512) + 1, hb⟩
  refine ⟨⟨16 * ((i 0).val / 512) + 2 * ((i 1).val / 512) + 1, hb⟩, (flush0_12 _).mpr (by show (16 * ((i 0).val / 512) + 2 * ((i 1).val / 512) + 1) % 2 = 1; omega), ?_⟩
  show i ∈ ((View.whole main_v38).slice (win0_12.rect ⟨16 * ((i 0).val / 512) + 2 * ((i 1).val / 512) + 1, hb⟩)).set
  rw [View.set_slice_whole, Rect.mem_set_unit]
  intro x
  match x with
  | ⟨0, _⟩ =>
    show win0_12.index ⟨16 * ((i 0).val / 512) + 2 * ((i 1).val / 512) + 1, hb⟩ (0 : Fin 2) * 512 ≤ (i 0).val
      ∧ (i 0).val < win0_12.index ⟨16 * ((i 0).val / 512) + 2 * ((i 1).val / 512) + 1, hb⟩ (0 : Fin 2) * 512 + 512
    rw [e0]; show (16 * ((i 0).val / 512) + 2 * ((i 1).val / 512) + 1) / 16 * 512 ≤ (i 0).val ∧ (i 0).val < (16 * ((i 0).val / 512) + 2 * ((i 1).val / 512) + 1) / 16 * 512 + 512
    omega
  | ⟨1, _⟩ =>
    show win0_12.index ⟨16 * ((i 0).val / 512) + 2 * ((i 1).val / 512) + 1, hb⟩ (1 : Fin 2) * 512 ≤ (i 1).val
      ∧ (i 1).val < win0_12.index ⟨16 * ((i 0).val / 512) + 2 * ((i 1).val / 512) + 1, hb⟩ (1 : Fin 2) * 512 + 512
    rw [e1]; show (16 * ((i 0).val / 512) + 2 * ((i 1).val / 512) + 1) / 2 % 8 * 512 ≤ (i 1).val ∧ (i 1).val < (16 * ((i 0).val / 512) + 2 * ((i 1).val / 512) + 1) / 2 % 8 * 512 + 512
    omega

/-- The array after the region is the specification. -/
theorem final (c : Dev nD) : (dats m 0 c).arrAt 12 cfg0.N = out m c :=
  (dats m 0 c).arrAt_eq_of_cover 12 (out m c) (fun t hf => flushed_eq m c t hf) covered

end Cert.KernelIdeal.KValue

end
-- ==== Proof.KRun.lean ====
/-
  The run.  After the region one host operation reshapes the [4096, 4096] output to [2, 2048, 4096]; the region leaves
  the specification in its output array (the odd points' blocks tile it), the reshape reads that array, and no host
  operation writes an argument array.
-/
import proofs.«115700_j12403865551687_1_alg».proof.Proof.KFinal

set_option maxRecDepth 16384

noncomputable section

namespace Cert.KernelIdeal.KValue

open Idealize.ShloMosaic Idealize.ShloMosaic.TcCoe Idealize.SL.Sem Idealize.ShloMosaic.ValueIdx
open Cert.KernelIdeal Cert.KernelIdeal.Gen Cert.Bridge Cert.KernelIdeal.KStep
open Idealize.ShloMosaic.Pipeline (Dat)

variable (m : (ℓ : Loc nD τ sig) → Buf (Elt Ideal) ℓ)

/-- What the reshape after the region leaves in its result: the specification, reshaped. -/
theorem tail_eq (c : Dev nD) :
    Pipeline.afterTail₀ cfgs (dats m) 0 (V0 m) [hostOps1] c main_v39
      = shapeCast S2x2048x4096 (out m c) shapeCasts_S4096x4096_S2x2048x4096 := by
  unfold Pipeline.afterTail₀
  show StableHlo.after hostOps1 _ (Proc.devRef .tc main_v39) = _
  after_results
  exact congrArg (fun x => shapeCast S2x2048x4096 x shapeCasts_S4096x4096_S2x2048x4096)
    ((Pipeline.withArrays_arr spec0 launch0.win.arr_inj c _ _ 12).trans (final m c))

/-- Every weakly fair execution terminates with the result at the reshaped specification and the arguments unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v39)
        = shapeCast S2x2048x4096 (Cert.Bridge.kernelOut (Gen.V m c main_v36) (Gen.V m c main_v37) (Gen.V m c main_v9) (Gen.V m c main_v12) (Gen.V m c main_v22) (Gen.V m c main_v24) (Gen.V m c main_v32) (Gen.V m c main_v33) (Gen.V m c main_v28) (Gen.V m c main_v34) (Gen.V m c main_v35) (Gen.V m c main_v31)) shapeCasts_S4096x4096_S2x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v39 (Pipeline.mem_restRefs_of main_v39 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KValue

end
-- ==== Proof.KPreXTerms.lean ====
/-
  The activations' side of the host operations before the region, as functions of the argument `x`.

  The program reshapes `x` to 4096 rows and quantizes each row: the row's maximum and minimum, the scale
  `max ((max − min) / 15) ε`, the zero point `round (−min / scale)`, and the quantized entries
  `min 15 (max 0 (round (x / scale) + zero))`.  Each of these is named
  here as a function of `x`, and the buffer the region finds each in is shown to hold that function of the launch
  contents of `x`.
-/
import proofs.«115700_j12403865551687_1_alg».proof.Proof.Gen.KernelIdeal.Frame.Runs
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.KPre

open Idealize.ShloMosaic Idealize.ShloMosaic.TcCoe Idealize.SL.Sem Idealize.ShloMosaic.ValueIdx
open Idealize.ShloMosaic.StableHlo
open Cert.KernelIdeal

/-- The activations as 4096 rows. -/
def hx0 (x : FVec Ideal S2x2048x4096 .f32) : FVec Ideal S4096x4096 .f32 :=
  shapeCast S4096x4096 x Gen.shapeCasts_S2x2048x4096_S4096x4096

/-- Each row's maximum, as a column. -/
def hmax (x : FVec Ideal S2x2048x4096 .f32) : FVec Ideal S4096x1 .f32 :=
  broadcastInDim S4096x1 ![0] Gen.bcast_S4096_S4096x1_0
    (Host.reduce (FloatOps.maximumf (F := Ideal) (φ := .f32)) (hx0 x) (constant (F := Ideal) S_ .f32 0xFF800000#32)
      Gen.reducesTo_S4096x4096_S4096_d1 Gen.h_S_)

/-- Each row's minimum, as a column. -/
def hmin (x : FVec Ideal S2x2048x4096 .f32) : FVec Ideal S4096x1 .f32 :=
  broadcastInDim S4096x1 ![0] Gen.bcast_S4096_S4096x1_0
    (Host.reduce (FloatOps.minimumf (F := Ideal) (φ := .f32)) (hx0 x) (constant (F := Ideal) S_ .f32 0x7F800000#32)
      Gen.reducesTo_S4096x4096_S4096_d1 Gen.h_S_)

/-- Each row's scale: `max ((max − min) / 15) ε`. -/
def hsx (x : FVec Ideal S2x2048x4096 .f32) : FVec Ideal S4096x1 .f32 :=
  maximumf
    (Host.divf (subf (hmax x) (hmin x))
      (broadcastInDim S4096x1 ![] Gen.bcast_S_S4096x1 (constant (F := Ideal) S_ .f32 0x41700000#32)))
    (broadcastInDim S4096x1 ![] Gen.bcast_S_S4096x1 (constant (F := Ideal) S_ .f32 0x322BCC77#32))

/-- Each row's zero point: `round (−min / scale)`. -/
def hzx (x : FVec Ideal S2x2048x4096 .f32) : FVec Ideal S4096x1 .f32 :=
  Host.roundeven (Host.divf (Host.negf (hmin x)) (hsx x))

/-- The quantized activations: `min 15 (max 0 (round (x / scale) + zero))`. -/
def hxq (x : FVec Ideal S2x2048x4096 .f32) : FVec Ideal S4096x4096 .f32 :=
  minimumf (broadcastInDim S4096x4096 ![] Gen.bcast_S_S4096x4096 (id (constant (F := Ideal) S_ .f32 0x41700000#32)))
    (maximumf (broadcastInDim S4096x4096 ![] Gen.bcast_S_S4096x4096 (id (constant (F := Ideal) S_ .f32 0x00000000#32)))
      (addf
        (Host.roundeven (Host.divf (hx0 x) (broadcastInDim S4096x4096 ![0, 1] Gen.bcast_S4096x1_S4096x4096_0_1 (hsx x))))
        (broadcastInDim S4096x4096 ![0, 1] Gen.bcast_S4096x1_S4096x4096_0_1 (hzx x))))

/-- The quantized activations as the region reads them, in the narrower float type (the same extended reals). -/
def hxqb (x : FVec Ideal S2x2048x4096 .f32) : FVec Ideal S4096x4096 .bf16 :=
  truncf .bf16 (hxq x) Gen.bitsLt_bf16_f32

/-! ## What the region finds in the buffers -/

variable (m : (ℓ : Loc nD τ sig) → Buf (Elt Ideal) ℓ) (c : Dev nD)

set_option maxHeartbeats 4000000 in
/-- The scale's buffer holds the scale of the launch contents of `x`. -/
theorem V_sx : (Gen.V m c main_v9 : S4096x1.Idx → EReal) = hsx (m ((c.tc : Thread nD τ).loc main_arg0)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

set_option maxHeartbeats 4000000 in
/-- The zero point's buffer. -/
theorem V_zx : (Gen.V m c main_v12 : S4096x1.Idx → EReal) = hzx (m ((c.tc : Thread nD τ).loc main_arg0)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

set_option maxHeartbeats 4000000 in
/-- The quantized activations' buffer. -/
theorem V_xq32 : (Gen.V m c main_v18 : S4096x4096.Idx → EReal) = hxq (m ((c.tc : Thread nD τ).loc main_arg0)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

set_option maxHeartbeats 4000000 in
/-- The quantized activations' buffer in the narrower float type, which the region reads. -/
theorem V_xq : (Gen.V m c main_v36 : S4096x4096.Idx → EReal) = hxqb (m ((c.tc : Thread nD τ).loc main_arg0)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

end Cert.KernelIdeal.KPre

end
-- ==== Proof.LibRowFold.lean ====
/-
  A host reduce over the last axis, read at a row given by coordinates.

  For a commutative and associative body, `stablehlo.reduce` over the last axis of an `[n, C]` array is, at row `p`,
  the fold of the body from the initial value over the `C` entries of row `p`; over the last axis of a `[B, S, C]`
  array it is, at `(b, s)`, the fold over the `C` entries `(b, s, ·)`.  So the row reduce of an array and of the
  same array with its two leading axes merged into one agree: they fold the same entries.
-/
import Idealize.ShloMosaic.PureOps.Reduce
import Idealize.ShloMosaic.Lib.Pipeline.Value
import Idealize.ShloMosaic.Lib.ValueIdx

namespace Idealize.ShloMosaic.ValueIdx

open Idealize.ShloMosaic

variable {α : Type}

/-- Row `p` with column `k` put back is `(p, k)`. -/
theorem lift_last2 {n C : ℕ} (h : (⟨2, ![n, C]⟩ : Shape).Reduces [1] (⟨1, ![n]⟩ : Shape)) (p : Fin n)
    (k : Fin ((⟨2, ![n, C]⟩ : Shape).size 1)) : h.lift (ix1 p) k = ix2 p (⟨k.val, k.isLt⟩ : Fin C) := by
  funext c; apply Fin.ext
  fin_cases c <;> rfl

/-- `(b, s)` with the last coordinate `k` put back is `(b, s, k)`. -/
theorem lift_last3 {B S C : ℕ} (h : (⟨3, ![B, S, C]⟩ : Shape).Reduces [2] (⟨2, ![B, S]⟩ : Shape)) (b : Fin B) (s : Fin S)
    (k : Fin ((⟨3, ![B, S, C]⟩ : Shape).size 2)) : h.lift (ix2 b s) k = ix3 b s (⟨k.val, k.isLt⟩ : Fin C) := by
  funext c; apply Fin.ext
  fin_cases c <;> rfl

/-- A reduce over the last axis of `[n, C]`, at row `p`: the fold over the row's entries. -/
theorem reduce_last2_apply {n C : ℕ} {u : Shape} (f : α → α → α) [Std.Commutative f] [Std.Associative f]
    (x : (⟨2, ![n, C]⟩ : Shape).Idx → α) (init : u.Idx → α)
    (h' : (⟨2, ![n, C]⟩ : Shape).ReducesTo [1] (⟨1, ![n]⟩ : Shape))
    (h : (⟨2, ![n, C]⟩ : Shape).Reduces [1] (⟨1, ![n]⟩ : Shape)) (hu : 0 < u.numel) (p : Fin n) :
    Host.reduce f x init h' hu (ix1 p)
      = (Finset.univ : Finset (Fin C)).fold f (init (Shape.Idx.first hu)) (fun k => x (ix2 p k)) := by
  rw [Host.reduce_eq_fold_single f x init h' h hu]
  have hf : (x ∘ h.lift (ix1 p)) = fun k : Fin C => x (ix2 p k) := funext fun k => congrArg x (lift_last2 h p k)
  exact congrArg (fun g => Finset.fold f (init (Shape.Idx.first hu)) g (Finset.univ : Finset (Fin C))) hf

/-- A reduce over the last axis of `[B, S, C]`, at `(b, s)`: the fold over the entries `(b, s, ·)`. -/
theorem reduce_last3_apply {B S C : ℕ} {u : Shape} (f : α → α → α) [Std.Commutative f] [Std.Associative f]
    (x : (⟨3, ![B, S, C]⟩ : Shape).Idx → α) (init : u.Idx → α)
    (h' : (⟨3, ![B, S, C]⟩ : Shape).ReducesTo [2] (⟨2, ![B, S]⟩ : Shape))
    (h : (⟨3, ![B, S, C]⟩ : Shape).Reduces [2] (⟨2, ![B, S]⟩ : Shape)) (hu : 0 < u.numel) (b : Fin B) (s : Fin S) :
    Host.reduce f x init h' hu (ix2 b s)
      = (Finset.univ : Finset (Fin C)).fold f (init (Shape.Idx.first hu)) (fun k => x (ix3 b s k)) := by
  rw [Host.reduce_eq_fold_single f x init h' h hu]
  have hf : (x ∘ h.lift (ix2 b s)) = fun k : Fin C => x (ix3 b s k) := funext fun k => congrArg x (lift_last3 h b s k)
  exact congrArg (fun g => Finset.fold f (init (Shape.Idx.first hu)) g (Finset.univ : Finset (Fin C))) hf

/-- The row reduce of `[B, S, C]` reshaped to `[n, C]`, at row `p = b·S + s`, is the row reduce of the array itself at
    `(b, s)`. -/
theorem reduce_rows_reshape {n B S C : ℕ} {u : Shape} (f : α → α → α) [Std.Commutative f] [Std.Associative f]
    (x : (⟨3, ![B, S, C]⟩ : Shape).Idx → α) (init : u.Idx → α)
    (hc : (⟨3, ![B, S, C]⟩ : Shape).ShapeCasts ⟨2, ![n, C]⟩)
    (h2' : (⟨2, ![n, C]⟩ : Shape).ReducesTo [1] (⟨1, ![n]⟩ : Shape))
    (h2 : (⟨2, ![n, C]⟩ : Shape).Reduces [1] (⟨1, ![n]⟩ : Shape))
    (h3' : (⟨3, ![B, S, C]⟩ : Shape).ReducesTo [2] (⟨2, ![B, S]⟩ : Shape))
    (h3 : (⟨3, ![B, S, C]⟩ : Shape).Reduces [2] (⟨2, ![B, S]⟩ : Shape)) (hu : 0 < u.numel)
    (b : Fin B) (s : Fin S) (p : Fin n) (hp : p.val = b.val * S + s.val) :
    Host.reduce f (shapeCast ⟨2, ![n, C]⟩ x hc) init h2' hu (ix1 p) = Host.reduce f x init h3' hu (ix2 b s) := by
  rw [reduce_last2_apply f _ init h2' h2 hu p, reduce_last3_apply f x init h3' h3 hu b s]
  refine congrArg (fun g => Finset.fold f (init (Shape.Idx.first hu)) g (Finset.univ : Finset (Fin C))) (funext fun k => ?_)
  exact shapeCast_apply x hc _ _ (by
    rw [Shape.rowMajor_val_three, Shape.rowMajor_val_two]
    show (b.val * S + s.val) * C + k.val = p.val * C + k.val
    rw [hp])

end Idealize.ShloMosaic.ValueIdx
-- ==== Proof.KPreXRead.lean ====
/-
  The quantization of the activations read at a row, against the reference's stages.

  The program works on `x` reshaped to 4096 rows, the reference on the 2 × 2048 rows in place; row `2048 b + s` of
  the one is row `(b, s)` of the other.  A row's maximum and minimum are folds over the row's 4096 entries, the same
  entries on both sides; the scale and the zero point are then the same pointwise operations applied to equal values.
-/
import proofs.«115700_j12403865551687_1_alg».proof.Proof.KPreXTerms
import proofs.«115700_j12403865551687_1_alg».proof.Proof.Gen.ReferenceIdeal.Read
import proofs.«115700_j12403865551687_1_alg».proof.Proof.Spec
import proofs.«115700_j12403865551687_1_alg».proof.Proof.LibRowFold
import Idealize.ShloMosaic.Lib.Pipeline.Value
import Idealize.ShloMosaic.Lib.ValueIdx
import Idealize.ShloMosaic.PureOps.Ideal.Laws

noncomputable section

namespace Cert.KernelIdeal.KPre

open Idealize.ShloMosaic Idealize.ShloMosaic.ValueIdx
open Cert.KernelIdeal Cert.Bridge Cert.ReferenceIdeal.Read

/-! ## Pointwise operations at an entry (for any float values) -/

section Pointwise
variable {F : FTy → Type} [FloatOps F] {s : Shape} {φ : FTy}

theorem vmax_apply (a b : FVec F s φ) (i : s.Idx) : maximumf a b i = FloatOps.maximumf (a i) (b i) := rfl
theorem vsub_apply (a b : FVec F s φ) (i : s.Idx) : subf a b i = FloatOps.subf (a i) (b i) := rfl
theorem hdiv_apply (a b : FVec F s φ) (i : s.Idx) : Host.divf a b i = FloatOps.hostDivf (a i) (b i) := rfl
theorem hneg_apply (a : FVec F s φ) (i : s.Idx) : Host.negf a i = FloatOps.hostNegf (a i) := rfl
theorem hround_apply (a : FVec F s φ) (i : s.Idx) : Host.roundeven a i = FloatOps.hostUnary .roundeven (a i) := rfl
theorem const_apply (b : BitVec φ.bits) (i : s.Idx) : constant (F := F) s φ b i = FloatOps.ofBits φ b := rfl

end Pointwise

/-! ## The layout operations at coordinates -/

/-- A vector of 4096 entries as a column, read at `(p, 0)`. -/
theorem column_apply (y : FVec Ideal S4096 .f32) (p : Fin 4096) :
    broadcastInDim S4096x1 ![0] Gen.bcast_S4096_S4096x1_0 y (ix2 p 0) = y (ix1 p) :=
  broadcastInDim_apply _ Gen.bcast_S4096_S4096x1_0 y (ix2 p 0) (ix1 p) (fun a => match a with
    | ⟨0, _⟩ => by show p.val = if (4096 : Nat) = 1 then 0 else p.val; rw [if_neg (by decide)])

/-- A scalar spread over a column. -/
theorem scalar_column_apply (v : FVec Ideal S_ .f32) (i : S4096x1.Idx) :
    broadcastInDim S4096x1 ![] Gen.bcast_S_S4096x1 v i = v ix0 :=
  broadcastInDim_apply _ Gen.bcast_S_S4096x1 v i ix0 (fun a => a.elim0)

/-! ## The stages, row by row -/

variable (x : FVec Ideal S2x2048x4096 .f32)

/-- The maximum of row `2048 b + s` is the reference's maximum of row `(b, s)`: the same fold over the same entries. -/
theorem hmax_eq (b : Fin 2) (s : Fin 2048) :
    hmax x (ix2 (row b s) 0) = val_main_v1 (F := Ideal) x (ix3 b s 0) := by
  have e1 : idx_main_v1 (ix3 b s 0) = ix2 b s :=
    funext fun a => Fin.ext (by match a with | ⟨0, _⟩ => rfl | ⟨1, _⟩ => rfl)
  rw [val_main_v1_apply, e1]
  unfold hmax val_main_v0 val_main_cst hx0
  refine (column_apply _ (row b s)).trans ?_
  exact reduce_rows_reshape (FloatOps.maximumf (F := Ideal) (φ := .f32)) x (constant (F := Ideal) S_ .f32 0xFF800000#32)
    Gen.shapeCasts_S2x2048x4096_S4096x4096 Gen.reducesTo_S4096x4096_S4096_d1 (by decide)
    Cert.ReferenceIdeal.Gen.reducesTo_S2x2048x4096_S2x2048_d2 (by decide) Gen.h_S_ b s (row b s)
    (by show 2048 * b.val + s.val = b.val * 2048 + s.val; omega)

/-- The minimum of row `2048 b + s` is the reference's minimum of row `(b, s)`. -/
theorem hmin_eq (b : Fin 2) (s : Fin 2048) :
    hmin x (ix2 (row b s) 0) = val_main_v3 (F := Ideal) x (ix3 b s 0) := by
  have e1 : idx_main_v3 (ix3 b s 0) = ix2 b s :=
    funext fun a => Fin.ext (by match a with | ⟨0, _⟩ => rfl | ⟨1, _⟩ => rfl)
  rw [val_main_v3_apply, e1]
  unfold hmin val_main_v2 val_main_cst_0 hx0
  refine (column_apply _ (row b s)).trans ?_
  exact reduce_rows_reshape (FloatOps.minimumf (F := Ideal) (φ := .f32)) x (constant (F := Ideal) S_ .f32 0x7F800000#32)
    Gen.shapeCasts_S2x2048x4096_S4096x4096 Gen.reducesTo_S4096x4096_S4096_d1 (by decide)
    Cert.ReferenceIdeal.Gen.reducesTo_S2x2048x4096_S2x2048_d2 (by decide) Gen.h_S_ b s (row b s)
    (by show 2048 * b.val + s.val = b.val * 2048 + s.val; omega)

/-- The scale of row `2048 b + s`: the same operations on the same maximum and minimum. -/
theorem hsx_eq (b : Fin 2) (s : Fin 2048) :
    hsx x (ix2 (row b s) 0) = val_main_v8 (F := Ideal) x (ix3 b s 0) := by
  rw [val_main_v8_apply, val_main_v6_apply, val_main_v4_apply, val_main_v5_apply, val_main_v7_apply,
    val_main_cst_1_apply, val_main_cst_2_apply, ← hmax_eq, ← hmin_eq]
  unfold hsx
  rw [vmax_apply, hdiv_apply, vsub_apply, scalar_column_apply, scalar_column_apply, const_apply, const_apply]

/-- The zero point of row `2048 b + s`: the same operations on the same minimum and scale. -/
theorem hzx_eq (b : Fin 2) (s : Fin 2048) :
    hzx x (ix2 (row b s) 0) = val_main_v11 (F := Ideal) x (ix3 b s 0) := by
  rw [val_main_v11_apply, val_main_v10_apply, val_main_v9_apply, ← hmin_eq, ← hsx_eq]
  unfold hzx
  rw [hround_apply, hdiv_apply, hneg_apply]

end Cert.KernelIdeal.KPre

end
-- ==== Proof.LibReshapeRows.lean ====
/-
  Rows regrouped by a reshape, read at an index given by coordinates.

  An array `[B, S, C]` and the array `[n, C]` with `n = B·S` rows hold the same entries in row-major order: row
  `p = b·S + s` of the second is row `s` of batch `b` of the first, the last coordinate unchanged.  Both directions of
  the reshape are stated, and the column `[a, 1]` turned into the row `[1, a]`.
-/
import Idealize.ShloMosaic.Lib.Pipeline.Value
import Idealize.ShloMosaic.Lib.ValueIdx

namespace Idealize.ShloMosaic.ValueIdx

open Idealize.ShloMosaic

variable {α : Type}

/-- `[B, S, C]` reshaped to `[n, C]` reads, at `(p, k)` with `p = b·S + s`, the operand at `(b, s, k)`. -/
theorem shapeCast_join_rows_apply {n B S C : ℕ} (x : (⟨3, ![B, S, C]⟩ : Shape).Idx → α)
    (h : (⟨3, ![B, S, C]⟩ : Shape).ShapeCasts ⟨2, ![n, C]⟩) (b : Fin B) (s : Fin S) (k : Fin C) (p : Fin n)
    (hp : p.val = b.val * S + s.val) : shapeCast ⟨2, ![n, C]⟩ x h (ix2 p k) = x (ix3 b s k) :=
  shapeCast_apply x h _ _ (by
    rw [Shape.rowMajor_val_three, Shape.rowMajor_val_two]
    show (b.val * S + s.val) * C + k.val = p.val * C + k.val
    rw [hp])

/-- `[n, C]` reshaped to `[B, S, C]` reads, at `(b, s, k)`, the operand at `(p, k)` with `p = b·S + s`. -/
theorem shapeCast_split_rows_apply {n B S C : ℕ} (x : (⟨2, ![n, C]⟩ : Shape).Idx → α)
    (h : (⟨2, ![n, C]⟩ : Shape).ShapeCasts ⟨3, ![B, S, C]⟩) (b : Fin B) (s : Fin S) (k : Fin C) (p : Fin n)
    (hp : p.val = b.val * S + s.val) : shapeCast ⟨3, ![B, S, C]⟩ x h (ix3 b s k) = x (ix2 p k) :=
  shapeCast_apply x h _ _ (by
    rw [Shape.rowMajor_val_three, Shape.rowMajor_val_two]
    show p.val * C + k.val = (b.val * S + s.val) * C + k.val
    rw [hp])

/-- The column `[a, 1]` reshaped to the row `[1, a]` reads, at `(u, i)`, the column's entry `(i, 0)`. -/
theorem shapeCast_a1_1a_apply {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

end Idealize.ShloMosaic.ValueIdx
-- ==== Proof.KPreXQ.lean ====
/-
  The quantized activations, entry by entry.  Both programs compute
  `min 15 (max 0 (round (x / scale) + zero))` with the scale and the zero point of the entry's row; one holds `x` as
  4096 rows, the other as 2 × 2048 rows, and entry `(2048 b + s, k)` of the first is entry `(b, s, k)` of the second.
  So once the two programs' scales and zero points agree row by row, their quantized entries agree: every operation
  between is pointwise, a scalar broadcast reads its scalar, and a column broadcast along a row reads the row's entry
  of the column.
-/
import proofs.«115700_j12403865551687_1_alg».proof.Proof.KPreXTerms
import proofs.«115700_j12403865551687_1_alg».proof.Proof.Gen.ReferenceIdeal.Read
import proofs.«115700_j12403865551687_1_alg».proof.Proof.Spec
import proofs.«115700_j12403865551687_1_alg».proof.Proof.LibReshapeRows

noncomputable section

namespace Cert.KernelIdeal.KPre

open Idealize.ShloMosaic Idealize.ShloMosaic.TcCoe Idealize.SL.Sem Idealize.ShloMosaic.ValueIdx
open Cert.KernelIdeal Cert.Bridge

namespace XQ

/-- A scalar broadcast over the `[4096, 4096]` array reads the scalar everywhere. -/
theorem bcast_scalar_apply (v : S_.Idx → EReal) (j : S4096x4096.Idx) :
    broadcastInDim S4096x4096 ![] Gen.bcast_S_S4096x4096 v j = v (fun a => a.elim0) :=
  broadcastInDim_apply _ Gen.bcast_S_S4096x4096 v j (fun a => a.elim0) (fun a => a.elim0)

/-- A column broadcast along the rows reads, at `(p, k)`, the column's entry of row `p`. -/
theorem bcast_col_apply (v : S4096x1.Idx → EReal) (p k : Fin 4096) :
    broadcastInDim S4096x4096 ![0, 1] Gen.bcast_S4096x1_S4096x4096_0_1 v (ix2 p k) = v (ix2 p 0) :=
  broadcastInDim_apply _ Gen.bcast_S4096x1_S4096x4096_0_1 v (ix2 p k) (ix2 p 0) (fun a => match a with
    | ⟨0, _⟩ => by show p.val = if (4096 : Nat) = 1 then 0 else p.val; rw [if_neg (by decide)]
    | ⟨1, _⟩ => by show 0 = if (1 : Nat) = 1 then 0 else k.val; rw [if_pos rfl])

/-- Row `2048 b + s` of the activations as 4096 rows is row `(b, s)` of the activations. -/
theorem hx0_apply (x : FVec Ideal S2x2048x4096 .f32) (b : Fin 2) (s : Fin 2048) (k : Fin 4096) :
    hx0 x (ix2 (row b s) k) = x (ix3 b s k) := by
  unfold hx0
  exact shapeCast_join_rows_apply x Gen.shapeCasts_S2x2048x4096_S4096x4096 b s k (row b s)
    (by show 2048 * b.val + s.val = b.val * 2048 + s.val; omega)

/-- The quantized entry `(p, k)`, from the entry of `x` and the row's scale and zero point. -/
theorem hxq_apply (x : FVec Ideal S2x2048x4096 .f32) (p k : Fin 4096) :
    hxq x (ix2 p k)
      = FloatOps.minimumf (Ideal.ofBits .f32 0x41700000#32)
          (FloatOps.maximumf (Ideal.ofBits .f32 0x00000000#32)
            (FloatOps.addf (FloatOps.hostUnary .roundeven (FloatOps.hostDivf (hx0 x (ix2 p k)) (hsx x (ix2 p 0))))
              (hzx x (ix2 p 0)))) := by
  unfold hxq
  show FloatOps.minimumf (broadcastInDim S4096x4096 ![] Gen.bcast_S_S4096x4096 (id (constant (F := Ideal) S_ .f32 0x41700000#32)) (ix2 p k))
      (FloatOps.maximumf (broadcastInDim S4096x4096 ![] Gen.bcast_S_S4096x4096 (id (constant (F := Ideal) S_ .f32 0x00000000#32)) (ix2 p k))
        (FloatOps.addf (FloatOps.hostUnary .roundeven (FloatOps.hostDivf (hx0 x (ix2 p k))
            (broadcastInDim S4096x4096 ![0, 1] Gen.bcast_S4096x1_S4096x4096_0_1 (hsx x) (ix2 p k))))
          (broadcastInDim S4096x4096 ![0, 1] Gen.bcast_S4096x1_S4096x4096_0_1 (hzx x) (ix2 p k)))) = _
  rw [bcast_scalar_apply, bcast_scalar_apply, bcast_col_apply, bcast_col_apply]
  rfl

end XQ

open Cert.ReferenceIdeal.Read in
/-- Entry `(2048 b + s, k)` of the quantized activations is the reference's entry `(b, s, k)`, given that the two
    programs' scales and zero points agree on that row. -/
theorem xq_of (x : FVec Ideal S2x2048x4096 .f32)
    (hs : ∀ (b : Fin 2) (s : Fin 2048), hsx x (ix2 (row b s) 0) = Cert.ReferenceIdeal.Read.val_main_v8 (F := Ideal) x (ix3 b s 0))
    (hz : ∀ (b : Fin 2) (s : Fin 2048), hzx x (ix2 (row b s) 0) = Cert.ReferenceIdeal.Read.val_main_v11 (F := Ideal) x (ix3 b s 0))
    (b : Fin 2) (s : Fin 2048) (k : Fin 4096) :
    hxq x (ix2 (row b s) k) = Cert.ReferenceIdeal.Read.val_main_v17 (F := Ideal) x (ix3 b s k) := by
  have e12 : idx_main_v12 (ix3 b s k) = ix3 b s 0 := funext fun a => Fin.ext (by
    match a with | ⟨0, _⟩ => rfl | ⟨1, _⟩ => rfl | ⟨2, _⟩ => rfl)
  have e15 : idx_main_v15 (ix3 b s k) = ix3 b s 0 := funext fun a => Fin.ext (by
    match a with | ⟨0, _⟩ => rfl | ⟨1, _⟩ => rfl | ⟨2, _⟩ => rfl)
  rw [val_main_v17_apply, val_main_call2_v4_apply, val_main_call2_v3_apply, val_main_cst_4_apply,
    val_main_call2_v2_apply, val_main_call2_v1_apply, val_main_call2_v0_apply, val_main_cst_3_apply,
    val_main_v16_apply, val_main_v14_apply, val_main_v13_apply, val_main_v12_apply, val_main_v15_apply,
    e12, e15, ← hs b s, ← hz b s, XQ.hxq_apply, XQ.hx0_apply]
  rfl

end Cert.KernelIdeal.KPre

end
-- ==== Proof.KPreX.lean ====
/-
  The activations' side of the host operations before the region, against the reference's stages.  Both programs
  quantize each row of `x` the same way — the row's maximum and minimum, `scale = max ((max − min) / 15) ε`,
  `zero = round (−min / scale)`, `xq = min 15 (max 0 (round (x / scale) + zero))`; one works on `x` reshaped to
  4096 rows, the other on the 2 × 2048 rows in place, so entry `(2048 b + s, k)` of one is entry `(b, s, k)` of the
  other.  Each buffer the region is launched on holds its stage as a function of `x`; the row maxima and minima agree
  because they fold the same entries, and every later stage applies the same pointwise operations to equal values.
-/
import proofs.«115700_j12403865551687_1_alg».proof.Proof.Gen.KernelIdeal.Frame
import proofs.«115700_j12403865551687_1_alg».proof.Proof.Gen.ReferenceIdeal.Read
import proofs.«115700_j12403865551687_1_alg».proof.Proof.Spec
import proofs.«115700_j12403865551687_1_alg».proof.Proof.KPreXTerms
import proofs.«115700_j12403865551687_1_alg».proof.Proof.KPreXRead
import proofs.«115700_j12403865551687_1_alg».proof.Proof.KPreXQ
import Idealize.ShloMosaic.Lib.Pipeline.Value
import Idealize.ShloMosaic.Lib.ValueIdx
import Idealize.ShloMosaic.Lib.StableHlo.Run

noncomputable section

namespace Cert.KernelIdeal.KPre

open Idealize.ShloMosaic Idealize.ShloMosaic.TcCoe Idealize.SL.Sem Idealize.ShloMosaic.ValueIdx
open Cert.KernelIdeal Cert.KernelIdeal.Gen Cert.Bridge

variable (m : (ℓ : Loc nD τ sig) → Buf (Elt Ideal) ℓ) (c : Dev nD)

/-- The row's scale. -/
theorem sx_apply (b : Fin 2) (s : Fin 2048) :
    (V m c main_v9 : S4096x1.Idx → EReal) (ix2 (row b s) 0)
      = Cert.ReferenceIdeal.Read.val_main_v8 (F := Ideal) (m ((c.tc : Thread nD τ).loc main_arg0)) (ix3 b s 0) :=
  (congrFun (V_sx m c) (ix2 (row b s) 0)).trans (hsx_eq _ b s)

/-- The row's zero point. -/
theorem zx_apply (b : Fin 2) (s : Fin 2048) :
    (V m c main_v12 : S4096x1.Idx → EReal) (ix2 (row b s) 0)
      = Cert.ReferenceIdeal.Read.val_main_v11 (F := Ideal) (m ((c.tc : Thread nD τ).loc main_arg0)) (ix3 b s 0) :=
  (congrFun (V_zx m c) (ix2 (row b s) 0)).trans (hzx_eq _ b s)

/-- The quantized activations before the narrowing conversion, at row `2048 b + s`, are the reference's at `(b, s)`. -/
theorem xq32_apply (b : Fin 2) (s : Fin 2048) (k : Fin 4096) :
    (V m c main_v18 : S4096x4096.Idx → EReal) (ix2 (row b s) k)
      = Cert.ReferenceIdeal.Read.val_main_v17 (F := Ideal) (m ((c.tc : Thread nD τ).loc main_arg0)) (ix3 b s k) :=
  (congrFun (V_xq32 m c) (ix2 (row b s) k)).trans (xq_of _ (hsx_eq _) (hzx_eq _) b s k)

/-- The quantized activations the region is launched on, at row `2048 b + s`, are the reference's at `(b, s)`: the
    narrowing conversion keeps every extended real. -/
theorem xq_apply (b : Fin 2) (s : Fin 2048) (k : Fin 4096) :
    (V m c main_v36 : S4096x4096.Idx → EReal) (ix2 (row b s) k)
      = Cert.ReferenceIdeal.Read.val_main_v17 (F := Ideal) (m ((c.tc : Thread nD τ).loc main_arg0)) (ix3 b s k) := by
  refine (congrFun (V_xq m c) (ix2 (row b s) k)).trans ?_
  unfold hxqb
  exact (truncf_apply (ψ := .bf16) (hxq _) Gen.bitsLt_bf16_f32 _).trans (xq_of _ (hsx_eq _) (hzx_eq _) b s k)

end Cert.KernelIdeal.KPre

end
-- ==== Proof.KPreXSum.lean ====
/-
  The half sums of the quantized rows.  Each program slices the quantized activations into the two halves of the
  contracted axis and sums every row of each half from zero; row `2048 b + s` of one is row `(b, s)` of the other, and
  the summands are the same entries of the quantized array.

  The operations that cut and sum the quantized array are in the last stretch of host operations before the region;
  that stretch does not write the quantized array itself, so both the sums and the array are read from what the
  earlier stretches leave, and each sum is a function of the array: at row `r` it is
  `0 + Σ_k array (r, k)` over the half's 2048 columns.
-/
import proofs.«115700_j12403865551687_1_alg».proof.Proof.KPreX

noncomputable section

namespace Cert.KernelIdeal.KPre

open Idealize.ShloMosaic Idealize.ShloMosaic.TcCoe Idealize.SL.Sem Idealize.ShloMosaic.ValueIdx
open Cert.KernelIdeal Cert.KernelIdeal.Gen Cert.Bridge

variable (m : (ℓ : Loc nD τ sig) → Buf (Elt Ideal) ℓ) (c : Dev nD)

namespace Sum

/-! ## The last stretch of host operations, over what the earlier ones leave -/

/-- What the buffers hold before the last stretch of host operations. -/
def beforeSums : Valuation τ sig (Elt Ideal) :=
  StableHlo.after (List.flatten [hostOps0, hostOps0_1, hostOps0_2, hostOps0_3, hostOps0_4, hostOps0_5]) (fun b => m (c, b))

/-- The buffers when the region is entered: the last stretch run over `beforeSums`. -/
theorem V0_split : V0 m c = StableHlo.after hostOps0_6 (beforeSums m c) := by
  have e : List.flatten [hostOps0 (F := Ideal), hostOps0_1, hostOps0_2, hostOps0_3, hostOps0_4, hostOps0_5, hostOps0_6]
      = List.flatten [hostOps0 (F := Ideal), hostOps0_1, hostOps0_2, hostOps0_3, hostOps0_4, hostOps0_5] ++ hostOps0_6 := by
    simp only [List.flatten_cons, List.flatten_nil, List.append_nil, List.append_assoc]
  unfold beforeSums
  show StableHlo.after (List.flatten [hostOps0, hostOps0_1, hostOps0_2, hostOps0_3, hostOps0_4, hostOps0_5, hostOps0_6]) _ = _
  rw [e, StableHlo.after_append]

/-- The last stretch does not write the quantized array. -/
theorem tail_v18 (W : Valuation τ sig (Elt Ideal)) :
    StableHlo.after hostOps0_6 W (Proc.devRef .tc main_v18) = W (Proc.devRef .tc main_v18) := by
  simp only [hostOps0_6]
  after_results

/-- The first half's row sums after the last stretch: the quantized array cut to its first 2048 columns, each row
    summed from zero, kept as a column. -/
theorem tail_v22 (W : Valuation τ sig (Elt Ideal)) :
    (StableHlo.after hostOps0_6 W (Proc.devRef .tc main_v22) : S4096x1.Idx → EReal)
      = broadcastInDim S4096x1 ![0] bcast_S4096_S4096x1_0
          (Host.reduceAdd (F := Ideal)
            (extractStridedSlice S4096x2048 ![0, 0] (W (Proc.devRef .tc main_v18) : S4096x4096.Idx → EReal) slices_S4096x4096_S4096x2048_0_0)
            (constant (F := Ideal) S_ .f32 0x00000000#32) reducesTo_S4096x2048_S4096_d1 h_S_) := by
  simp only [hostOps0_6]
  after_results

/-- The second half's row sums after the last stretch: the same over the last 2048 columns. -/
theorem tail_v24 (W : Valuation τ sig (Elt Ideal)) :
    (StableHlo.after hostOps0_6 W (Proc.devRef .tc main_v24) : S4096x1.Idx → EReal)
      = broadcastInDim S4096x1 ![0] bcast_S4096_S4096x1_0
          (Host.reduceAdd (F := Ideal)
            (extractStridedSlice S4096x2048 ![0, 2048] (W (Proc.devRef .tc main_v18) : S4096x4096.Idx → EReal) slices_S4096x4096_S4096x2048_0_2048)
            (constant (F := Ideal) S_ .f32 0x00000000#32) reducesTo_S4096x2048_S4096_d1 h_S_) := by
  simp only [hostOps0_6]
  after_results

/-- The first half's row sums the region is launched on, as a function of the quantized array it is launched on. -/
theorem sumx1_eq : (V m c main_v22 : S4096x1.Idx → EReal)
    = broadcastInDim S4096x1 ![0] bcast_S4096_S4096x1_0
        (Host.reduceAdd (F := Ideal)
          (extractStridedSlice S4096x2048 ![0, 0] (V m c main_v18 : S4096x4096.Idx → EReal) slices_S4096x4096_S4096x2048_0_0)
          (constant (F := Ideal) S_ .f32 0x00000000#32) reducesTo_S4096x2048_S4096_d1 h_S_) := by
  dsimp only [Gen.V]
  rw [V0_split m c, tail_v18, tail_v22]

/-- The second half's row sums, likewise. -/
theorem sumx2_eq : (V m c main_v24 : S4096x1.Idx → EReal)
    = broadcastInDim S4096x1 ![0] bcast_S4096_S4096x1_0
        (Host.reduceAdd (F := Ideal)
          (extractStridedSlice S4096x2048 ![0, 2048] (V m c main_v18 : S4096x4096.Idx → EReal) slices_S4096x4096_S4096x2048_0_2048)
          (constant (F := Ideal) S_ .f32 0x00000000#32) reducesTo_S4096x2048_S4096_d1 h_S_) := by
  dsimp only [Gen.V]
  rw [V0_split m c, tail_v18, tail_v24]

/-! ## A half's row sum read at a row -/

/-- Column `k` of the first half, as a column of the whole array. -/
abbrev colL (k : Fin 2048) : Fin 4096 := ⟨k.val, by omega⟩

/-- Column `k` of the second half, as a column of the whole array. -/
abbrev colR (k : Fin 2048) : Fin 4096 := ⟨2048 + k.val, by omega⟩

/-- The first half's sum of row `r` of an array `X`, kept as a column: zero plus the sum of the row's first 2048
    entries. -/
theorem rowsumL_apply (X : S4096x4096.Idx → EReal) (r : Fin 4096) :
    broadcastInDim S4096x1 ![0] bcast_S4096_S4096x1_0
        (Host.reduceAdd (F := Ideal) (extractStridedSlice S4096x2048 ![0, 0] X slices_S4096x4096_S4096x2048_0_0)
          (constant (F := Ideal) S_ .f32 0x00000000#32) reducesTo_S4096x2048_S4096_d1 h_S_) (ix2 r 0)
      = Ideal.ofBits .f32 0x00000000#32 + ∑ k : Fin 2048, X (ix2 r (colL k)) := by
  refine (broadcastInDim_apply _ bcast_S4096_S4096x1_0 _ (ix2 r 0) (ix1 r) (fun a => match a with
    | ⟨0, _⟩ => by show r.val = if (4096 : Nat) = 1 then 0 else r.val; rw [if_neg (by decide)])).trans ?_
  simp only [Host.reduceAdd, Ideal.hostReduceAdd_def]
  rw [Ideal.hostReduceAdd_single reducesTo_S4096x2048_S4096_d1 (by decide)]
  refine congrArg₂ (· + ·) rfl (Finset.sum_congr rfl fun k _ => ?_)
  exact extractStridedSlice_apply ![0, 0] X slices_S4096x4096_S4096x2048_0_0 _ (ix2 r (colL k)) (fun a => match a with
    | ⟨0, _⟩ => by show r.val = 0 + r.val; omega
    | ⟨1, _⟩ => by show k.val = 0 + k.val; omega)

/-- The second half's sum of row `r` of an array `X`, kept as a column: zero plus the sum of the row's last 2048
    entries. -/
theorem rowsumR_apply (X : S4096x4096.Idx → EReal) (r : Fin 4096) :
    broadcastInDim S4096x1 ![0] bcast_S4096_S4096x1_0
        (Host.reduceAdd (F := Ideal) (extractStridedSlice S4096x2048 ![0, 2048] X slices_S4096x4096_S4096x2048_0_2048)
          (constant (F := Ideal) S_ .f32 0x00000000#32) reducesTo_S4096x2048_S4096_d1 h_S_) (ix2 r 0)
      = Ideal.ofBits .f32 0x00000000#32 + ∑ k : Fin 2048, X (ix2 r (colR k)) := by
  refine (broadcastInDim_apply _ bcast_S4096_S4096x1_0 _ (ix2 r 0) (ix1 r) (fun a => match a with
    | ⟨0, _⟩ => by show r.val = if (4096 : Nat) = 1 then 0 else r.val; rw [if_neg (by decide)])).trans ?_
  simp only [Host.reduceAdd, Ideal.hostReduceAdd_def]
  rw [Ideal.hostReduceAdd_single reducesTo_S4096x2048_S4096_d1 (by decide)]
  refine congrArg₂ (· + ·) rfl (Finset.sum_congr rfl fun k _ => ?_)
  exact extractStridedSlice_apply ![0, 2048] X slices_S4096x4096_S4096x2048_0_2048 _ (ix2 r (colR k)) (fun a => match a with
    | ⟨0, _⟩ => by show r.val = 0 + r.val; omega
    | ⟨1, _⟩ => by show 2048 + k.val = 2048 + k.val; omega)

/-! ## Against the reference's half sums -/

/-- The first half's sum of row `2048 b + s` is the reference's sum of row `(b, s)`, given that the two quantized
    arrays agree along that row. -/
theorem sumx1_of (b : Fin 2) (s : Fin 2048)
    (hx : ∀ k : Fin 4096, (V m c main_v18 : S4096x4096.Idx → EReal) (ix2 (row b s) k)
      = Cert.ReferenceIdeal.Read.val_main_v17 (F := Ideal) (m ((c.tc : Thread nD τ).loc main_arg0)) (ix3 b s k)) :
    (V m c main_v22 : S4096x1.Idx → EReal) (ix2 (row b s) 0)
      = Cert.ReferenceIdeal.Read.val_main_v25 (F := Ideal) (m ((c.tc : Thread nD τ).loc main_arg0)) (ix3 b s 0) := by
  rw [sumx1_eq]
  refine (rowsumL_apply _ (row b s)).trans ?_
  rw [Cert.ReferenceIdeal.Read.val_main_v25_apply, Cert.ReferenceIdeal.Read.val_main_v24_apply]
  refine congrArg₂ (· + ·) rfl (Finset.sum_congr rfl fun k _ => ?_)
  rw [Cert.ReferenceIdeal.Read.val_main_v19_apply]
  refine (hx (colL k)).trans (congrArg _ (funext fun a => Fin.ext ?_))
  match a with
  | ⟨0, _⟩ => rfl
  | ⟨1, _⟩ => rfl
  | ⟨2, _⟩ => rfl

/-- The second half's sum of row `2048 b + s` is the reference's, likewise. -/
theorem sumx2_of (b : Fin 2) (s : Fin 2048)
    (hx : ∀ k : Fin 4096, (V m c main_v18 : S4096x4096.Idx → EReal) (ix2 (row b s) k)
      = Cert.ReferenceIdeal.Read.val_main_v17 (F := Ideal) (m ((c.tc : Thread nD τ).loc main_arg0)) (ix3 b s k)) :
    (V m c main_v24 : S4096x1.Idx → EReal) (ix2 (row b s) 0)
      = Cert.ReferenceIdeal.Read.val_main_v55 (F := Ideal) (m ((c.tc : Thread nD τ).loc main_arg0)) (ix3 b s 0) := by
  rw [sumx2_eq]
  refine (rowsumR_apply _ (row b s)).trans ?_
  rw [Cert.ReferenceIdeal.Read.val_main_v55_apply, Cert.ReferenceIdeal.Read.val_main_v54_apply]
  refine congrArg₂ (· + ·) rfl (Finset.sum_congr rfl fun k _ => ?_)
  rw [Cert.ReferenceIdeal.Read.val_main_v49_apply]
  refine (hx (colR k)).trans (congrArg _ (funext fun a => Fin.ext ?_))
  match a with
  | ⟨0, _⟩ => rfl
  | ⟨1, _⟩ => rfl
  | ⟨2, _⟩ => rfl

end Sum

/-- The sum of the first half of the quantized row. -/
theorem sumx1_apply (b : Fin 2) (s : Fin 2048) :
    (V m c main_v22 : S4096x1.Idx → EReal) (ix2 (row b s) 0)
      = Cert.ReferenceIdeal.Read.val_main_v25 (F := Ideal) (m ((c.tc : Thread nD τ).loc main_arg0)) (ix3 b s 0) := by
  exact Sum.sumx1_of m c b s (fun k => xq32_apply m c b s k)

/-- The sum of the second half of the quantized row. -/
theorem sumx2_apply (b : Fin 2) (s : Fin 2048) :
    (V m c main_v24 : S4096x1.Idx → EReal) (ix2 (row b s) 0)
      = Cert.ReferenceIdeal.Read.val_main_v55 (F := Ideal) (m ((c.tc : Thread nD τ).loc main_arg0)) (ix3 b s 0) := by
  exact Sum.sumx2_of m c b s (fun k => xq32_apply m c b s k)

end Cert.KernelIdeal.KPre

end
-- ==== Proof.KPreW.lean ====
/-
  The weights' side of the host operations before the region, against the reference's stages.  Both programs turn
  the integer weights into floats exactly (the float format does not matter on the extended reals), sum each half of
  every row, and take each half's per-column scale and zero point from the argument columns; one lays the per-column
  vectors out as rows `[1, 4096]`, the other as vectors `[4096]`.
-/
import proofs.«115700_j12403865551687_1_alg».proof.Proof.Gen.KernelIdeal.Frame
import proofs.«115700_j12403865551687_1_alg».proof.Proof.Gen.ReferenceIdeal.Read
import proofs.«115700_j12403865551687_1_alg».proof.Proof.Spec
import proofs.«115700_j12403865551687_1_alg».proof.Proof.LibReshapeRows
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.KPre

open Idealize.ShloMosaic Idealize.ShloMosaic.TcCoe Idealize.SL.Sem Idealize.ShloMosaic.ValueIdx
open Cert.KernelIdeal Cert.KernelIdeal.Gen Cert.Bridge

variable (m : (ℓ : Loc nD τ sig) → Buf (Elt Ideal) ℓ) (c : Dev nD)

/-- The weights the region is launched on: the integers as extended reals. -/
theorem w_eq : (V m c main_v37 : S4096x4096.Idx → EReal)
    = sitofp (F := Ideal) .bf16 (m ((c.tc : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results

/-- Entry `(n, k)` of the weights is the reference's. -/
theorem w_apply (n k : Fin 4096) :
    (V m c main_v37 : S4096x4096.Idx → EReal) (ix2 n k)
      = Cert.ReferenceIdeal.Read.val_main_v18 (F := Ideal) (m ((c.tc : Thread nD τ).loc main_arg1)) (ix2 n k) := by
  rw [w_eq]; rfl

/-- The first half's per-column scale, laid out as a row. -/
theorem sw1_eq : (V m c main_v32 : S1x4096.Idx → EReal)
    = shapeCast S1x4096 (m ((c.tc : Thread nD τ).loc main_arg2)) shapeCasts_S4096x1_S1x4096 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

theorem sw1_apply (n : Fin 4096) :
    (V m c main_v32 : S1x4096.Idx → EReal) (ix2 0 n)
      = Cert.ReferenceIdeal.Read.val_main_v21 (F := Ideal) (m ((c.tc : Thread nD τ).loc main_arg2)) (ix1 n) := by
  rw [sw1_eq, Cert.ReferenceIdeal.Read.val_main_v21_apply]
  refine (shapeCast_a1_1a_apply _ _ 0 n).trans ?_
  exact congrArg _ (funext fun a => Fin.ext (by match a with | ⟨0, _⟩ => exact (Nat.div_one n.val).symm | ⟨1, _⟩ => rfl))

/-- The first half's per-column zero point. -/
theorem zw1_eq : (V m c main_v33 : S1x4096.Idx → EReal)
    = shapeCast S1x4096 (m ((c.tc : Thread nD τ).loc main_arg3)) shapeCasts_S4096x1_S1x4096 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

theorem zw1_apply (n : Fin 4096) :
    (V m c main_v33 : S1x4096.Idx → EReal) (ix2 0 n)
      = Cert.ReferenceIdeal.Read.val_main_v22 (F := Ideal) (m ((c.tc : Thread nD τ).loc main_arg3)) (ix1 n) := by
  rw [zw1_eq, Cert.ReferenceIdeal.Read.val_main_v22_apply]
  refine (shapeCast_a1_1a_apply _ _ 0 n).trans ?_
  exact congrArg _ (funext fun a => Fin.ext (by match a with | ⟨0, _⟩ => exact (Nat.div_one n.val).symm | ⟨1, _⟩ => rfl))

/-- The second half's per-column scale. -/
theorem sw2_eq : (V m c main_v34 : S1x4096.Idx → EReal)
    = shapeCast S1x4096 (m ((c.tc : Thread nD τ).loc main_arg4)) shapeCasts_S4096x1_S1x4096 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

theorem sw2_apply (n : Fin 4096) :
    (V m c main_v34 : S1x4096.Idx → EReal) (ix2 0 n)
      = Cert.ReferenceIdeal.Read.val_main_v51 (F := Ideal) (m ((c.tc : Thread nD τ).loc main_arg4)) (ix1 n) := by
  rw [sw2_eq, Cert.ReferenceIdeal.Read.val_main_v51_apply]
  refine (shapeCast_a1_1a_apply _ _ 0 n).trans ?_
  exact congrArg _ (funext fun a => Fin.ext (by match a with | ⟨0, _⟩ => exact (Nat.div_one n.val).symm | ⟨1, _⟩ => rfl))

/-- The second half's per-column zero point. -/
theorem zw2_eq : (V m c main_v35 : S1x4096.Idx → EReal)
    = shapeCast S1x4096 (m ((c.tc : Thread nD τ).loc main_arg5)) shapeCasts_S4096x1_S1x4096 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

theorem zw2_apply (n : Fin 4096) :
    (V m c main_v35 : S1x4096.Idx → EReal) (ix2 0 n)
      = Cert.ReferenceIdeal.Read.val_main_v52 (F := Ideal) (m ((c.tc : Thread nD τ).loc main_arg5)) (ix1 n) := by
  rw [zw2_eq, Cert.ReferenceIdeal.Read.val_main_v52_apply]
  refine (shapeCast_a1_1a_apply _ _ 0 n).trans ?_
  exact congrArg _ (funext fun a => Fin.ext (by match a with | ⟨0, _⟩ => exact (Nat.div_one n.val).symm | ⟨1, _⟩ => rfl))

/-- The sum of the first half of each weight row, laid out as a row. -/
theorem sumw1_eq : (V m c main_v28 : S1x4096.Idx → EReal)
    = shapeCast S1x4096 (Cert.ReferenceIdeal.Read.val_main_v26 (F := Ideal) (m ((c.tc : Thread nD τ).loc main_arg1))) shapeCasts_S4096_S1x4096 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

theorem sumw1_apply (n : Fin 4096) :
    (V m c main_v28 : S1x4096.Idx → EReal) (ix2 0 n)
      = Cert.ReferenceIdeal.Read.val_main_v26 (F := Ideal) (m ((c.tc : Thread nD τ).loc main_arg1)) (ix1 n) := by
  rw [sumw1_eq]
  exact shapeCast_a_1a_apply _ _ 0 n

/-- The sum of the second half of each weight row. -/
theorem sumw2_eq : (V m c main_v31 : S1x4096.Idx → EReal)
    = shapeCast S1x4096 (Cert.ReferenceIdeal.Read.val_main_v56 (F := Ideal) (m ((c.tc : Thread nD τ).loc main_arg1))) shapeCasts_S4096_S1x4096 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

theorem sumw2_apply (n : Fin 4096) :
    (V m c main_v31 : S1x4096.Idx → EReal) (ix2 0 n)
      = Cert.ReferenceIdeal.Read.val_main_v56 (F := Ideal) (m ((c.tc : Thread nD τ).loc main_arg1)) (ix1 n) := by
  rw [sumw2_eq]
  exact shapeCast_a_1a_apply _ _ 0 n

end Cert.KernelIdeal.KPre

end
-- ==== Proof.RefStages.lean ====
/-
  The reference's result read at an entry.  Entry `(b, s, n)` of the result is the sum of the two halves'
  dequantized products (Spec.lean `regionVal`), each built from the reference's own stages: the quantized row
  `(b, s)`, its scale, zero point and half sum, and column `n`'s scale, zero point and half sum of the weights.
-/
import proofs.«115700_j12403865551687_1_alg».proof.Proof.Gen.ReferenceIdeal.Read
import proofs.«115700_j12403865551687_1_alg».proof.Proof.Spec
import Idealize.ShloMosaic.Lib.ValueIdx
import Idealize.ShloMosaic.Lib.Pipeline.Value
import Idealize.ShloMosaic.PureOps.Ideal.Laws

noncomputable section

namespace Cert.Bridge.Ref

open Idealize.ShloMosaic Idealize.ShloMosaic.ValueIdx
open Cert.ReferenceIdeal Cert.ReferenceIdeal.Read Cert.Bridge

variable (x0 : (⟨S2x2048x4096, .f32⟩ : BufTy).Contents (Elt Ideal))
  (x1 : (⟨S4096x4096, .i32⟩ : BufTy).Contents (Elt Ideal))
  (x2 x3 x4 x5 : (⟨S4096x1, .f32⟩ : BufTy).Contents (Elt Ideal))

/-- Entry `(b, s, n)` of the first half's product. -/
theorem half0_apply (b : Fin 2) (s : Fin 2048) (n : Fin 4096) :
    val_main_v48 (F := Ideal) x0 x1 x2 x3 (ix3 b s n)
      = regionVal (∑ d : Fin 2048, val_main_v17 (F := Ideal) x0 (ix3 b s (col 0 d)) * val_main_v18 (F := Ideal) x1 (ix2 n (col 0 d)))
          (val_main_v8 (F := Ideal) x0 (ix3 b s 0)) (val_main_v11 (F := Ideal) x0 (ix3 b s 0))
          (val_main_v25 (F := Ideal) x0 (ix3 b s 0)) (val_main_v21 (F := Ideal) x2 (ix1 n))
          (val_main_v22 (F := Ideal) x3 (ix1 n)) (val_main_v26 (F := Ideal) x1 (ix1 n)) := by
  have rc : ∀ f : S2x2048x4096.Idx → S2x2048x1.Idx,
      (∀ i : S2x2048x4096.Idx, ∀ a, (f i a).val = match a with | ⟨0, _⟩ => (i 0).val | ⟨1, _⟩ => (i 1).val | ⟨2, _⟩ => 0) →
      f (ix3 b s n) = ix3 b s 0 := fun f hf => funext fun a => Fin.ext (by
        rw [hf]; match a with | ⟨0, _⟩ => rfl | ⟨1, _⟩ => rfl | ⟨2, _⟩ => rfl)
  have e45 : idx_main_v45 (ix3 b s n) = ix3 b s 0 := rc _ fun i a => by match a with | ⟨0, _⟩ => rfl | ⟨1, _⟩ => rfl | ⟨2, _⟩ => rfl
  have e28 : idx_main_v28 (ix3 b s n) = ix3 b s 0 := rc _ fun i a => by match a with | ⟨0, _⟩ => rfl | ⟨1, _⟩ => rfl | ⟨2, _⟩ => rfl
  have e34 : idx_main_v34 (ix3 b s n) = ix3 b s 0 := rc _ fun i a => by match a with | ⟨0, _⟩ => rfl | ⟨1, _⟩ => rfl | ⟨2, _⟩ => rfl
  have e40 : idx_main_v40 (ix3 b s n) = ix3 b s 0 := rc _ fun i a => by match a with | ⟨0, _⟩ => rfl | ⟨1, _⟩ => rfl | ⟨2, _⟩ => rfl
  have e46 : idx_main_v44 (idx_main_v46 (ix3 b s n)) = ix1 n := funext fun a => by match a with | ⟨0, _⟩ => rfl
  have e29 : idx_main_v27 (idx_main_v29 (ix3 b s n)) = ix1 n := funext fun a => by match a with | ⟨0, _⟩ => rfl
  have e33 : idx_main_v32 (idx_main_v33 (ix3 b s n)) = ix1 n := funext fun a => by match a with | ⟨0, _⟩ => rfl
  have e41 : idx_main_v39 (idx_main_v41 (ix3 b s n)) = ix1 n := funext fun a => by match a with | ⟨0, _⟩ => rfl
  have el : ∀ k : Fin 2048, idx_main_v19 (lidx_main_v23 (ix3 b s n) k) = ix3 b s (col 0 k) := fun k => funext fun a => Fin.ext (by
    match a with
    | ⟨0, _⟩ => rfl
    | ⟨1, _⟩ => rfl
    | ⟨2, _⟩ => show k.val = 2048 * 0 + k.val; omega)
  have er : ∀ k : Fin 2048, idx_main_v20 (ridx_main_v23 (ix3 b s n) k) = ix2 n (col 0 k) := fun k => funext fun a => Fin.ext (by
    match a with
    | ⟨0, _⟩ => rfl
    | ⟨1, _⟩ => show k.val = 2048 * 0 + k.val; omega)
  rw [val_main_v48_apply, val_main_v47_apply, val_main_v45_apply, val_main_v46_apply, val_main_v44_apply,
    val_main_v43_apply, val_main_v36_apply, val_main_v31_apply, val_main_v23_apply, val_main_v30_apply,
    val_main_v28_apply, val_main_v29_apply, val_main_v27_apply, val_main_v35_apply, val_main_v33_apply,
    val_main_v32_apply, val_main_v34_apply, val_main_v42_apply, val_main_v40_apply, val_main_v38_apply,
    val_main_v37_apply, val_main_cst_7_apply, val_main_v41_apply, val_main_v39_apply,
    e45, e28, e34, e40, e46, e29, e33, e41]
  simp only [val_main_v19_apply, val_main_v20_apply, el, er]
  rfl

/-- Entry `(b, s, n)` of the second half's product. -/
theorem half1_apply (b : Fin 2) (s : Fin 2048) (n : Fin 4096) :
    val_main_v78 (F := Ideal) x0 x1 x4 x5 (ix3 b s n)
      = regionVal (∑ d : Fin 2048, val_main_v17 (F := Ideal) x0 (ix3 b s (col 1 d)) * val_main_v18 (F := Ideal) x1 (ix2 n (col 1 d)))
          (val_main_v8 (F := Ideal) x0 (ix3 b s 0)) (val_main_v11 (F := Ideal) x0 (ix3 b s 0))
          (val_main_v55 (F := Ideal) x0 (ix3 b s 0)) (val_main_v51 (F := Ideal) x4 (ix1 n))
          (val_main_v52 (F := Ideal) x5 (ix1 n)) (val_main_v56 (F := Ideal) x1 (ix1 n)) := by
  have rc : ∀ f : S2x2048x4096.Idx → S2x2048x1.Idx,
      (∀ i : S2x2048x4096.Idx, ∀ a, (f i a).val = match a with | ⟨0, _⟩ => (i 0).val | ⟨1, _⟩ => (i 1).val | ⟨2, _⟩ => 0) →
      f (ix3 b s n) = ix3 b s 0 := fun f hf => funext fun a => Fin.ext (by
        rw [hf]; match a with | ⟨0, _⟩ => rfl | ⟨1, _⟩ => rfl | ⟨2, _⟩ => rfl)
  have e75 : idx_main_v75 (ix3 b s n) = ix3 b s 0 := rc _ fun i a => by match a with | ⟨0, _⟩ => rfl | ⟨1, _⟩ => rfl | ⟨2, _⟩ => rfl
  have e58 : idx_main_v58 (ix3 b s n) = ix3 b s 0 := rc _ fun i a => by match a with | ⟨0, _⟩ => rfl | ⟨1, _⟩ => rfl | ⟨2, _⟩ => rfl
  have e64 : idx_main_v64 (ix3 b s n) = ix3 b s 0 := rc _ fun i a => by match a with | ⟨0, _⟩ => rfl | ⟨1, _⟩ => rfl | ⟨2, _⟩ => rfl
  have e70 : idx_main_v70 (ix3 b s n) = ix3 b s 0 := rc _ fun i a => by match a with | ⟨0, _⟩ => rfl | ⟨1, _⟩ => rfl | ⟨2, _⟩ => rfl
  have e76 : idx_main_v74 (idx_main_v76 (ix3 b s n)) = ix1 n := funext fun a => by match a with | ⟨0, _⟩ => rfl
  have e59 : idx_main_v57 (idx_main_v59 (ix3 b s n)) = ix1 n := funext fun a => by match a with | ⟨0, _⟩ => rfl
  have e63 : idx_main_v62 (idx_main_v63 (ix3 b s n)) = ix1 n := funext fun a => by match a with | ⟨0, _⟩ => rfl
  have e71 : idx_main_v69 (idx_main_v71 (ix3 b s n)) = ix1 n := funext fun a => by match a with | ⟨0, _⟩ => rfl
  have el : ∀ k : Fin 2048, idx_main_v49 (lidx_main_v53 (ix3 b s n) k) = ix3 b s (col 1 k) := fun k => funext fun a => Fin.ext (by
    match a with
    | ⟨0, _⟩ => rfl
    | ⟨1, _⟩ => rfl
    | ⟨2, _⟩ => show 2048 + k.val = 2048 * 1 + k.val; omega)
  have er : ∀ k : Fin 2048, idx_main_v50 (ridx_main_v53 (ix3 b s n) k) = ix2 n (col 1 k) := fun k => funext fun a => Fin.ext (by
    match a with
    | ⟨0, _⟩ => rfl
    | ⟨1, _⟩ => show 2048 + k.val = 2048 * 1 + k.val; omega)
  rw [val_main_v78_apply, val_main_v77_apply, val_main_v75_apply, val_main_v76_apply, val_main_v74_apply,
    val_main_v73_apply, val_main_v66_apply, val_main_v61_apply, val_main_v53_apply, val_main_v60_apply,
    val_main_v58_apply, val_main_v59_apply, val_main_v57_apply, val_main_v65_apply, val_main_v63_apply,
    val_main_v62_apply, val_main_v64_apply, val_main_v72_apply, val_main_v70_apply, val_main_v68_apply,
    val_main_v67_apply, val_main_cst_10_apply, val_main_v71_apply, val_main_v69_apply,
    e75, e58, e64, e70, e76, e59, e63, e71]
  simp only [val_main_v49_apply, val_main_v50_apply, el, er]
  rfl

/-- Entry `(b, s, n)` of the reference's result: the sum of the two halves. -/
theorem result_apply (b : Fin 2) (s : Fin 2048) (n : Fin 4096) :
    val_main_v79 (F := Ideal) x0 x1 x2 x3 x4 x5 (ix3 b s n)
      = regionVal (∑ d : Fin 2048, val_main_v17 (F := Ideal) x0 (ix3 b s (col 0 d)) * val_main_v18 (F := Ideal) x1 (ix2 n (col 0 d)))
          (val_main_v8 (F := Ideal) x0 (ix3 b s 0)) (val_main_v11 (F := Ideal) x0 (ix3 b s 0))
          (val_main_v25 (F := Ideal) x0 (ix3 b s 0)) (val_main_v21 (F := Ideal) x2 (ix1 n))
          (val_main_v22 (F := Ideal) x3 (ix1 n)) (val_main_v26 (F := Ideal) x1 (ix1 n))
        + regionVal (∑ d : Fin 2048, val_main_v17 (F := Ideal) x0 (ix3 b s (col 1 d)) * val_main_v18 (F := Ideal) x1 (ix2 n (col 1 d)))
          (val_main_v8 (F := Ideal) x0 (ix3 b s 0)) (val_main_v11 (F := Ideal) x0 (ix3 b s 0))
          (val_main_v55 (F := Ideal) x0 (ix3 b s 0)) (val_main_v51 (F := Ideal) x4 (ix1 n))
          (val_main_v52 (F := Ideal) x5 (ix1 n)) (val_main_v56 (F := Ideal) x1 (ix1 n)) := by
  rw [val_main_v79_apply, half0_apply, half1_apply]
  rfl

end Cert.Bridge.Ref

end
-- ==== Proof.BridgeLaw.lean ====
/-
  The law that joins the two results, over abstract launch arrays.  If twelve arrays agree entry by entry with the
  reference's stages — the quantized activations at row `2048 b + s` with the reference's at `(b, s)`, the per-row
  columns likewise, the weights entry by entry, the per-column rows with the reference's vectors — then the
  accumulated result over them, `(0 + half₀) + half₁`, reshaped to `(b, s, n)`, is the reference's result
  `half₀ + half₁`: on the extended reals `0 + a = a`.
-/
import proofs.«115700_j12403865551687_1_alg».proof.Proof.RefStages
import proofs.«115700_j12403865551687_1_alg».proof.Proof.LibReshapeRows

noncomputable section

namespace Cert.Bridge

open Idealize.ShloMosaic Idealize.ShloMosaic.ValueIdx
open Cert.ReferenceIdeal Cert.ReferenceIdeal.Read

/-- The accumulated result at row `p`, column `n`. -/
theorem kernelOut_apply (X W : (⟨2, ![4096, 4096]⟩ : Shape).Idx → EReal)
    (SX ZX SUMX1 SUMX2 : (⟨2, ![4096, 1]⟩ : Shape).Idx → EReal)
    (SW1 ZW1 SUMW1 SW2 ZW2 SUMW2 : (⟨2, ![1, 4096]⟩ : Shape).Idx → EReal) (p n : Fin 4096) :
    kernelOut X W SX ZX SUMX1 SUMX2 SW1 ZW1 SUMW1 SW2 ZW2 SUMW2 (ix2 p n)
      = (Ideal.ofBits .f32 0x00000000#32
          + regionVal (∑ d : Fin 2048, X (ix2 p (col 0 d)) * W (ix2 n (col 0 d))) (SX (ix2 p 0)) (ZX (ix2 p 0))
              (SUMX1 (ix2 p 0)) (SW1 (ix2 0 n)) (ZW1 (ix2 0 n)) (SUMW1 (ix2 0 n)))
        + regionVal (∑ d : Fin 2048, X (ix2 p (col 1 d)) * W (ix2 n (col 1 d))) (SX (ix2 p 0)) (ZX (ix2 p 0))
            (SUMX2 (ix2 p 0)) (SW2 (ix2 0 n)) (ZW2 (ix2 0 n)) (SUMW2 (ix2 0 n)) := rfl

variable (x0 : (⟨S2x2048x4096, .f32⟩ : BufTy).Contents (Elt Ideal))
  (x1 : (⟨S4096x4096, .i32⟩ : BufTy).Contents (Elt Ideal))
  (x2 x3 x4 x5 : (⟨S4096x1, .f32⟩ : BufTy).Contents (Elt Ideal))

/-- Twelve arrays that are the reference's stages entry by entry accumulate to the reference's result. -/
theorem kernelOut_eq_result (X W : (⟨2, ![4096, 4096]⟩ : Shape).Idx → EReal)
    (SX ZX SUMX1 SUMX2 : (⟨2, ![4096, 1]⟩ : Shape).Idx → EReal)
    (SW1 ZW1 SUMW1 SW2 ZW2 SUMW2 : (⟨2, ![1, 4096]⟩ : Shape).Idx → EReal)
    (h : (⟨2, ![4096, 4096]⟩ : Shape).ShapeCasts ⟨3, ![2, 2048, 4096]⟩)
    (hX : ∀ (b : Fin 2) (s : Fin 2048) (k : Fin 4096), X (ix2 (row b s) k) = val_main_v17 (F := Ideal) x0 (ix3 b s k))
    (hW : ∀ n k : Fin 4096, W (ix2 n k) = val_main_v18 (F := Ideal) x1 (ix2 n k))
    (hSX : ∀ (b : Fin 2) (s : Fin 2048), SX (ix2 (row b s) 0) = val_main_v8 (F := Ideal) x0 (ix3 b s 0))
    (hZX : ∀ (b : Fin 2) (s : Fin 2048), ZX (ix2 (row b s) 0) = val_main_v11 (F := Ideal) x0 (ix3 b s 0))
    (hSUMX1 : ∀ (b : Fin 2) (s : Fin 2048), SUMX1 (ix2 (row b s) 0) = val_main_v25 (F := Ideal) x0 (ix3 b s 0))
    (hSUMX2 : ∀ (b : Fin 2) (s : Fin 2048), SUMX2 (ix2 (row b s) 0) = val_main_v55 (F := Ideal) x0 (ix3 b s 0))
    (hSW1 : ∀ n : Fin 4096, SW1 (ix2 0 n) = val_main_v21 (F := Ideal) x2 (ix1 n))
    (hZW1 : ∀ n : Fin 4096, ZW1 (ix2 0 n) = val_main_v22 (F := Ideal) x3 (ix1 n))
    (hSUMW1 : ∀ n : Fin 4096, SUMW1 (ix2 0 n) = val_main_v26 (F := Ideal) x1 (ix1 n))
    (hSW2 : ∀ n : Fin 4096, SW2 (ix2 0 n) = val_main_v51 (F := Ideal) x4 (ix1 n))
    (hZW2 : ∀ n : Fin 4096, ZW2 (ix2 0 n) = val_main_v52 (F := Ideal) x5 (ix1 n))
    (hSUMW2 : ∀ n : Fin 4096, SUMW2 (ix2 0 n) = val_main_v56 (F := Ideal) x1 (ix1 n)) :
    shapeCast ⟨3, ![2, 2048, 4096]⟩ (kernelOut X W SX ZX SUMX1 SUMX2 SW1 ZW1 SUMW1 SW2 ZW2 SUMW2) h
      = val_main_v79 (F := Ideal) x0 x1 x2 x3 x4 x5 := by
  funext i
  obtain ⟨b, s, n, rfl⟩ : ∃ (b : Fin 2) (s : Fin 2048) (n : Fin 4096), i = ix3 b s n := ⟨i 0, i 1, i 2, eq_ix3 i⟩
  rw [Ref.result_apply]
  refine (shapeCast_split_rows_apply _ h b s n (row b s) (by show 2048 * b.val + s.val = b.val * 2048 + s.val; omega)).trans ?_
  rw [kernelOut_apply, hSX, hZX, hSUMX1, hSUMX2, hSW1, hZW1, hSUMW1, hSW2, hZW2, hSUMW2]
  simp only [hX, hW]
  rw [Ideal.ofBits_zero_f32, zero_add]

end Cert.Bridge

end
-- ==== Proof.Bridge.lean ====
/-
  The two results are one array.  The accumulating program ends with `(0 + half₀) + half₁` at row `2048 b + s`,
  column `n`, of its twelve launch arrays, reshaped to `(b, s, n)`; the reference ends with `half₀ + half₁` of its own
  stages at `(b, s, n)`.  The launch arrays are the reference's stages entry by entry (the activations' and the
  weights' sides), so the law over abstract arrays applies.
-/
import proofs.«115700_j12403865551687_1_alg».proof.Proof.KPreX
import proofs.«115700_j12403865551687_1_alg».proof.Proof.KPreXSum
import proofs.«115700_j12403865551687_1_alg».proof.Proof.KPreW
import proofs.«115700_j12403865551687_1_alg».proof.Proof.BridgeLaw

noncomputable section

namespace Cert.KernelIdeal.KValue

open Idealize.ShloMosaic Idealize.ShloMosaic.TcCoe Idealize.SL.Sem Idealize.ShloMosaic.ValueIdx
open Cert.KernelIdeal Cert.KernelIdeal.Gen Cert.Bridge Cert.KernelIdeal.KPre

variable (m : (ℓ : Loc nD τ sig) → Buf (Elt Ideal) ℓ) (c : Dev nD)

/-- The accumulated result over the launch arrays, reshaped, is the reference's result of the same arguments. -/
theorem result_eq :
    shapeCast S2x2048x4096 (kernelOut (V m c main_v36) (V m c main_v37) (V m c main_v9) (V m c main_v12) (V m c main_v22) (V m c main_v24) (V m c main_v32) (V m c main_v33) (V m c main_v28) (V m c main_v34) (V m c main_v35) (V m c main_v31)) shapeCasts_S4096x4096_S2x2048x4096
      = Cert.ReferenceIdeal.Read.val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  kernelOut_eq_result _ _ _ _ _ _ _ _ _ _ _ _ _ _ _ _ _ _ shapeCasts_S4096x4096_S2x2048x4096
    (xq_apply m c) (w_apply m c) (sx_apply m c) (zx_apply m c) (sumx1_apply m c) (sumx2_apply m c)
    (sw1_apply m c) (zw1_apply m c) (sumw1_apply m c) (sw2_apply m c) (zw2_apply m c) (sumw2_apply m c)

end Cert.KernelIdeal.KValue

end
-- ==== Proof.lean ====
/-
  A 4-bit-quantized matrix product, `x · wᵀ` with the contracted axis in two halves, each half with its own per-column
  scale and zero point of the weights: the accumulating program against the reference.

  Both programs quantize every row `p` of the activations to integers `xq p ·` in `[0, 15]` with a scale `sx p` and a
  zero point `zx p`, and expand the dequantized product of half `r` as
      (sx · sw) · (Σ_d xq·w − zx · Σw − zw · Σx + (2048 · zx) · zw),
  so that only the integer product is large.  The reference adds the two halves; the accumulating program visits, for
  every 512 × 512 block of the result, the two halves in turn, starting its accumulator at zero, adding one half per
  visit and writing the block back after the second.  On the extended reals it therefore ends with
  `(0 + half₀) + half₁`, the reference with `half₀ + half₁`: equal, because `0 + a = a` there without any finiteness
  (the precondition is never opened).  Every other operation is the same on both sides, read at the same entries: the
  row maximum and minimum are folds over the same 4096 entries whether the rows are numbered `p = 2048 b + s` or
  `(b, s)`, the conversions to the narrow float format are the identity, the integer weights become the same extended
  reals whatever the format, and a block's entry is the array's entry at (block index) × (block size) + offset.

  The word-level program and its idealization run (the three frames), the idealization rewrote nothing, and the two
  idealized programs end with equal results.
-/
import proofs.«115700_j12403865551687_1_alg».proof.Defs
import proofs.«115700_j12403865551687_1_alg».proof.Proof.Gen.Kernel
import proofs.«115700_j12403865551687_1_alg».proof.Proof.Gen.Kernel.Skeleton
import proofs.«115700_j12403865551687_1_alg».proof.Proof.Gen.Kernel.Launch
import proofs.«115700_j12403865551687_1_alg».proof.Proof.Gen.Kernel.Points
import proofs.«115700_j12403865551687_1_alg».proof.Proof.Gen.Kernel.Frame
import proofs.«115700_j12403865551687_1_alg».proof.Proof.Gen.KernelIdeal
import proofs.«115700_j12403865551687_1_alg».proof.Proof.Gen.KernelIdeal.Skeleton
import proofs.«115700_j12403865551687_1_alg».proof.Proof.Gen.KernelIdeal.Launch
import proofs.«115700_j12403865551687_1_alg».proof.Proof.Gen.KernelIdeal.Points
import proofs.«115700_j12403865551687_1_alg».proof.Proof.Gen.KernelIdeal.Frame
import proofs.«115700_j12403865551687_1_alg».proof.Proof.Gen.ReferenceIdeal
import proofs.«115700_j12403865551687_1_alg».proof.Proof.Gen.ReferenceIdeal.Run
import proofs.«115700_j12403865551687_1_alg».proof.Proof.Gen.ReferenceIdeal.Read
import proofs.«115700_j12403865551687_1_alg».proof.Proof.Gen.Pre_finite_inputs
import proofs.«115700_j12403865551687_1_alg».proof.Proof.KRun
import proofs.«115700_j12403865551687_1_alg».proof.Proof.Bridge
import Idealize.ShloMosaic.Adequacy
import Idealize.ShloMosaic.Init

noncomputable section

namespace Cert.Proof

open Idealize.ShloMosaic Idealize.SL.Sem

/-- The word-level program runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the same result array: the
    accumulating program's `(0 + half₀) + half₁` over its launch arrays is the reference's `half₀ + half₁`. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v79_eq, (hagree c).1, (hagree c).2.1, (hagree c).2.2.1, (hagree c).2.2.2.1,
    (hagree c).2.2.2.2.1, (hagree c).2.2.2.2.2]
  exact (Cert.KernelIdeal.KValue.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
